-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S800000 .f32) (main_arg3 : FVec F S128x256 .f32) (main_arg4 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S256x128 : Shape := ⟨2, ![256, 128]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 104
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S800000, .i1⟩
  | .hbm, ⟨8, _⟩ => ⟨S_, .f32⟩
  | .hbm, ⟨9, _⟩ => ⟨S800000, .f32⟩
  | .hbm, ⟨10, _⟩ => ⟨S800000, .i1⟩
  | .hbm, ⟨11, _⟩ => ⟨S_, .f32⟩
  | .hbm, ⟨12, _⟩ => ⟨S_, .f32⟩
  | .hbm, ⟨13, _⟩ => ⟨S800000, .f32⟩
  | .hbm, ⟨14, _⟩ => ⟨S800000, .f32⟩
  | .hbm, ⟨15, _⟩ => ⟨S800000, .f32⟩
  | .hbm, ⟨16, _⟩ => ⟨S_, .f32⟩
  | .hbm, ⟨17, _⟩ => ⟨S800000, .f32⟩
  | .hbm, ⟨18, _⟩ => ⟨S800000, .f32⟩
  | .hbm, ⟨19, _⟩ => ⟨S800000, .f32⟩
  | .hbm, ⟨20, _⟩ => ⟨S_, .f32⟩
  | .hbm, ⟨21, _⟩ => ⟨S800000, .f32⟩
  | .hbm, ⟨22, _⟩ => ⟨S800000, .i1⟩
  | .hbm, ⟨23, _⟩ => ⟨S_, .f32⟩
  | .hbm, ⟨24, _⟩ => ⟨S800000, .f32⟩
  | .hbm, ⟨25, _⟩ => ⟨S800000, .f32⟩
  | .hbm, ⟨26, _⟩ => ⟨S50000, .i32⟩
  | .hbm, ⟨27, _⟩ => ⟨S1x800000, .i32⟩
  | .hbm, ⟨28, _⟩ => ⟨S800000, .i32⟩
  | .hbm, ⟨29, _⟩ => ⟨S850000, .i32⟩
  | .hbm, ⟨30, _⟩ => ⟨S1x800000, .i32⟩
  | .hbm, ⟨31, _⟩ => ⟨S800000, .i32⟩
  | .hbm, ⟨32, _⟩ => ⟨S850000, .i32⟩
  | .hbm, ⟨33, _⟩ => ⟨S_, .f32⟩
  | .hbm, ⟨34, _⟩ => ⟨S50000, .f32⟩
  | .hbm, ⟨35, _⟩ => ⟨S850000, .f32⟩
  | .hbm, ⟨36, _⟩ => ⟨S_, .f32⟩
  | .hbm, ⟨37, _⟩ => ⟨S50000, .f32⟩
  | .hbm, ⟨38, _⟩ => ⟨S850000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .i1⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000, .f32⟩
  | .hbm, ⟨66, _⟩ => ⟨S850000, .f32⟩
  | .hbm, ⟨67, _⟩ => ⟨S256x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v4 : Ref sig .tc := ⟨.hbm, 14, rfl⟩
abbrev main_call0_v5 : Ref sig .tc := ⟨.hbm, 15, rfl⟩
abbrev main_call0_cst_2 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_call1_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_call2_v0 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_c_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_c_12 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S850000x256 : Shape := ⟨2, ![850000, 256]⟩
abbrev S256x128 : Shape := ⟨2, ![256, 128]⟩
abbrev S50000x128 : Shape := ⟨2, ![50000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S800000, .i1⟩
  | .hbm, ⟨8, _⟩ => ⟨S_, .f32⟩
  | .hbm, ⟨9, _⟩ => ⟨S800000, .f32⟩
  | .hbm, ⟨10, _⟩ => ⟨S800000, .i1⟩
  | .hbm, ⟨11, _⟩ => ⟨S_, .f32⟩
  | .hbm, ⟨12, _⟩ => ⟨S_, .f32⟩
  | .hbm, ⟨13, _⟩ => ⟨S800000, .f32⟩
  | .hbm, ⟨14, _⟩ => ⟨S800000, .f32⟩
  | .hbm, ⟨15, _⟩ => ⟨S800000, .f32⟩
  | .hbm, ⟨16, _⟩ => ⟨S_, .f32⟩
  | .hbm, ⟨17, _⟩ => ⟨S800000, .f32⟩
  | .hbm, ⟨18, _⟩ => ⟨S800000, .f32⟩
  | .hbm, ⟨19, _⟩ => ⟨S800000, .f32⟩
  | .hbm, ⟨20, _⟩ => ⟨S_, .f32⟩
  | .hbm, ⟨21, _⟩ => ⟨S800000, .f32⟩
  | .hbm, ⟨22, _⟩ => ⟨S800000, .i1⟩
  | .hbm, ⟨23, _⟩ => ⟨S_, .f32⟩
  | .hbm, ⟨24, _⟩ => ⟨S800000, .f32⟩
  | .hbm, ⟨25, _⟩ => ⟨S800000, .f32⟩
  | .hbm, ⟨26, _⟩ => ⟨S50000, .i32⟩
  | .hbm, ⟨27, _⟩ => ⟨S1x800000, .i32⟩
  | .hbm, ⟨28, _⟩ => ⟨S800000, .i32⟩
  | .hbm, ⟨29, _⟩ => ⟨S850000, .i32⟩
  | .hbm, ⟨30, _⟩ => ⟨S1x800000, .i32⟩
  | .hbm, ⟨31, _⟩ => ⟨S800000, .i32⟩
  | .hbm, ⟨32, _⟩ => ⟨S850000, .i32⟩
  | .hbm, ⟨33, _⟩ => ⟨S_, .f32⟩
  | .hbm, ⟨34, _⟩ => ⟨S50000, .f32⟩
  | .hbm, ⟨35, _⟩ => ⟨S850000, .f32⟩
  | .hbm, ⟨36, _⟩ => ⟨S_, .f32⟩
  | .hbm, ⟨37, _⟩ => ⟨S50000, .f32⟩
  | .hbm, ⟨38, _⟩ => ⟨S850000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .i1⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000, .f32⟩
  | .hbm, ⟨66, _⟩ => ⟨S850000, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x256, .f32⟩
  | .hbm, ⟨76, _⟩ => ⟨S850000x1, .f32⟩
  | .hbm, ⟨77, _⟩ => ⟨S850000x256, .f32⟩
  | .hbm, ⟨78, _⟩ => ⟨S850000x256, .f32⟩
  | .hbm, ⟨79, _⟩ => ⟨S_, .f32⟩
  | .hbm, ⟨80, _⟩ => ⟨S50000x256, .f32⟩
  | .hbm, ⟨81, _⟩ => ⟨S850000x1, .i32⟩
  | .hbm, ⟨82, _⟩ => ⟨S50000x256, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x256, .f32⟩
  | .hbm, ⟨92, _⟩ => ⟨S850000x1, .f32⟩
  | .hbm, ⟨93, _⟩ => ⟨S850000x256, .f32⟩
  | .hbm, ⟨94, _⟩ => ⟨S850000x256, .f32⟩
  | .hbm, ⟨95, _⟩ => ⟨S_, .f32⟩
  | .hbm, ⟨96, _⟩ => ⟨S50000x256, .f32⟩
  | .hbm, ⟨97, _⟩ => ⟨S850000x1, .i32⟩
  | .hbm, ⟨98, _⟩ => ⟨S50000x256, .f32⟩
  | .hbm, ⟨99, _⟩ => ⟨S256x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v4 : Ref sig .tc := ⟨.hbm, 14, rfl⟩
abbrev main_call0_v5 : Ref sig .tc := ⟨.hbm, 15, rfl⟩
abbrev main_call0_cst_2 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_call1_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_call2_v0 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_c_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Prefix.lean ====
import proofs.«130008_j46316927320539_2_alg».proof.KernelIdeal

/-!
# The edge data both programs compute first

Both programs start with the same host operations on the edge list and the edge weights: the source and target words
of every edge (the given edges followed by one self loop per node), the clamped edge weights, the weighted in-degree of
every node, its inverse square root where the degree is positive (zero elsewhere), and the symmetric normalisation
`dis[source] * weight * dis[target]` of every edge. They are named here once, as functions of the two argument arrays.
-/

noncomputable section

namespace Cert.KernelIdeal.Spec

open Idealize.ShloMosaic Cert.KernelIdeal Cert.KernelIdeal.Facts₀ Cert.KernelIdeal.Facts

variable {F : FTy → Type} [FloatOps F] [Cert.KernelIdeal.Facts]

/-- The exponential linear unit of the edge weights: `w` where `w > 0`, `1 · expm1 (w or 0)` elsewhere. -/
def eluOf (a2 : FVec F S800000 .f32) : FVec F S800000 .f32 :=
  select (cmpf .ogt a2 (broadcastInDim S800000 ![] bcast_S_S800000 (constant S_ .f32 0x00000000#32))) a2
    (mulf (broadcastInDim S800000 ![] bcast_S_S800000 (constant S_ .f32 0x3F800000#32))
      (Host.expm1 (select (cmpf .ogt a2 (broadcastInDim S800000 ![] bcast_S_S800000 (constant S_ .f32 0x00000000#32)))
        (broadcastInDim S800000 ![] bcast_S_S800000 (id (constant S_ .f32 0x00000000#32))) a2)))

/-- The clamped edge weights: a weight whose unit is not positive is replaced by the literal. -/
def ewOf (a2 : FVec F S800000 .f32) : FVec F S800000 .f32 :=
  select (cmpf .ole (eluOf a2) (broadcastInDim S800000 ![] bcast_S_S800000 (constant S_ .f32 0x00000000#32)))
    (broadcastInDim S800000 ![] bcast_S_S800000 (constant S_ .f32 0x33D6BF95#32)) a2

/-- The words of the given edges followed by the words of the self loops, as one vector. -/
def catI (a : IVec S800000 32) (b : IVec S50000 32) : IVec S850000 32 :=
  concatenate S850000 0 [⟨S800000, a⟩, ⟨S50000, b⟩] concatenates_S800000_S50000_S850000_d0

/-- The weights of the given edges followed by the weights of the self loops, as one vector. -/
def catF (a : FVec F S800000 .f32) (b : FVec F S50000 .f32) : FVec F S850000 .f32 :=
  concatenate S850000 0 [⟨S800000, a⟩, ⟨S50000, b⟩] concatenates_S800000_S50000_S850000_d0

/-- The weights of all edges: the clamped ones, then `1` for every self loop. -/
def w12Of (a2 : FVec F S800000 .f32) : FVec F S850000 .f32 :=
  catF (ewOf a2) (broadcastInDim S50000 ![] bcast_S_S50000 (constant S_ .f32 0x3F800000#32))

/-- The source words of all edges: row 0 of the edge list, then the nodes' own numbers. -/
def srcOf (a1 : IVec S2x800000 32) : IVec S850000 32 :=
  catI (shapeCast S800000 (extractStridedSlice S1x800000 ![0, 0] a1 slices_S2x800000_S1x800000_0_0) shapeCasts_S1x800000_S800000)
    (iotaInDim S50000 32 0)

/-- The target words of all edges: row 1 of the edge list, then the nodes' own numbers. -/
def tgtOf (a1 : IVec S2x800000 32) : IVec S850000 32 :=
  catI (shapeCast S800000 (extractStridedSlice S1x800000 ![1, 0] a1 slices_S2x800000_S1x800000_1_0) shapeCasts_S1x800000_S800000)
    (iotaInDim S50000 32 0)

/-- A negative word is moved up by the number of nodes (the wrap-around of negative positions). -/
def wrapOf (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A vector of words as a column. -/
def colOf (v : IVec S850000 32) : IVec S850000x1 32 :=
  broadcastInDim S850000x1 ![0] bcast_S850000_S850000x1_0 v

/-- The weighted in-degree of every node. -/
def degOf (a1 : IVec S2x800000 32) (a2 : FVec F S800000 .f32) : FVec F S50000 .f32 :=
  Host.scatterAdd scatter_S50000_S850000x1_S850000_n_0_0_1
    (broadcastInDim S50000 ![] bcast_S_S50000 (constant S_ .f32 0x00000000#32)) (colOf (tgtOf a1)) (w12Of a2)

/-- Its inverse square root where positive, zero elsewhere. -/
def disOf (a1 : IVec S2x800000 32) (a2 : FVec F S800000 .f32) : FVec F S50000 .f32 :=
  select (cmpf .ogt (degOf a1 a2) (broadcastInDim S50000 ![] bcast_S_S50000 (constant S_ .f32 0x00000000#32)))
    (Host.rsqrt (degOf a1 a2)) (broadcastInDim S50000 ![] bcast_S_S50000 (constant S_ .f32 0x00000000#32))

/-- The normalised weight of every edge. -/
def nrmOf (a1 : IVec S2x800000 32) (a2 : FVec F S800000 .f32) : FVec F S850000 .f32 :=
  mulf (mulf (Host.gather gather_S50000_S850000x1_S850000_n_0_n_n_0_1_1 (disOf a1 a2) (colOf (wrapOf (srcOf a1)))) (w12Of a2))
    (Host.gather gather_S50000_S850000x1_S850000_n_0_n_n_0_1_1 (disOf a1 a2) (colOf (wrapOf (tgtOf a1))))

end Cert.KernelIdeal.Spec

end
-- ==== Proof.LibAfterStep.lean ====
/-
  Straight-line host code in single-assignment form, read one operation at a time.

  `after ops V` is the buffers' contents after the operations `ops`, in order, from the contents `V`. When no later
  operation writes an operation's result buffer, and neither that operation nor a later one writes its operands (each
  tensor value has its own buffer, written once), the FINAL contents of the result buffer are the operation's function
  of the FINAL contents of its operands: the final valuation satisfies every operation's equation at once. A long
  program is then read back one equation per operation, never as one inlined term.
-/
import Idealize.ShloMosaic.Lib.StableHlo.Run

noncomputable section

namespace Cert.Lib

open Idealize.ShloMosaic Idealize.ShloMosaic.StableHlo

variable {τ : Topo} {sig : RefSig} {Val : EltTy → Type}

/-- Running one list of operations after another is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A buffer no operation writes ends as it started. -/
theorem after_kept (ops : List (HloOp τ sig Val)) (r : Ref sig .tc) (V : Valuation τ sig Val)
    (h : ∀ op ∈ ops, Proc.devRef .tc r ∉ op.writes) : after ops V (Proc.devRef .tc r) = V (Proc.devRef .tc r) :=
  after_of_forall_not_mem ops V h

/-- "No operation from position `n` on writes `r`" is a fact about the list of the buffers the operations write alone —
    which does not depend on the float operations their functions are built from: `r` differs from each of them. -/
theorem not_writes_of_refs {L : List (HloOp τ sig Val)} {W : List (Ref sig .tc)}
    (h : L.map (fun op => op.writes) = W.map (fun y => ({Proc.devRef .tc y} : Finset (DevRef τ sig)))) (n : ℕ) (r : Ref sig .tc)
    (hW : ∀ y ∈ List.drop n W, r ≠ y) : ∀ op ∈ List.drop n L, Proc.devRef .tc r ∉ op.writes := by
  intro op hop
  have hm : op.writes ∈ List.drop n (W.map fun y => ({Proc.devRef .tc y} : Finset (DevRef τ sig))) := by
    rw [← h, ← List.map_drop]
    exact List.mem_map_of_mem hop
  rw [← List.map_drop] at hm
  obtain ⟨y, hy, e⟩ := List.mem_map.mp hm
  rw [← e, Finset.mem_singleton]
  exact devRef_ne_of_ne (hW y hy)

/-- The same through the buffers' indices: a buffer whose index differs from the index of every buffer written from position
    `n` on is written by none of those operations (two references with different indices are different). -/
theorem not_writes_of_keys {L : List (HloOp τ sig Val)} {W : List (Ref sig .tc)} {K : List ℕ}
    (h : L.map (fun op => op.writes) = W.map (fun y => ({Proc.devRef .tc y} : Finset (DevRef τ sig))))
    (hK : W.map (fun y => y.idx.val) = K) (n : ℕ) (r : Ref sig .tc) (hW : ∀ j ∈ List.drop n K, r.idx.val ≠ j) :
    ∀ op ∈ List.drop n L, Proc.devRef .tc r ∉ op.writes :=
  not_writes_of_refs h n r fun y hy e =>
    hW y.idx.val (by rw [← hK, ← List.map_drop]; exact List.mem_map_of_mem hy) (congrArg (fun z : Ref sig .tc => z.idx.val) e)

/-- THE FINAL VALUE OF A CONSTANT's buffer, when no later operation writes it. -/
theorem after_nullary_step (pre post : List (HloOp τ sig Val)) (y : Ref sig .tc) (v : y.ty.Contents Val) (hy)
    (V : Valuation τ sig Val) (hy' : ∀ op ∈ post, Proc.devRef .tc y ∉ op.writes) :
    after (pre ++ nullary y v hy :: post) V (Proc.devRef .tc y) = v := by
  rw [after_append, after_cons, after_of_forall_not_mem post _ hy', nullary_result]

/-- THE FINAL VALUE OF A ONE-OPERAND OPERATION's result is its function of the operand's final value. -/
theorem after_unary_step (pre post : List (HloOp τ sig Val)) (x y : Ref sig .tc) (f : x.ty.Contents Val → y.ty.Contents Val) (hx hy)
    (V : Valuation τ sig Val) (hy' : ∀ op ∈ post, Proc.devRef .tc y ∉ op.writes)
    (hx' : ∀ op ∈ unary x y f hx hy :: post, Proc.devRef .tc x ∉ op.writes) :
    after (pre ++ unary x y f hx hy :: post) V (Proc.devRef .tc y)
      = f (after (pre ++ unary x y f hx hy :: post) V (Proc.devRef .tc x)) := by
  rw [after_append]
  generalize after pre V = W
  rw [after_of_forall_not_mem (unary x y f hx hy :: post) W hx', after_cons, after_of_forall_not_mem post _ hy', unary_result]

/-- THE FINAL VALUE OF A TWO-OPERAND OPERATION's result is its function of the operands' final values. -/
theorem after_binary_step (pre post : List (HloOp τ sig Val)) (a b y : Ref sig .tc)
    (f : a.ty.Contents Val → b.ty.Contents Val → y.ty.Contents Val) (ha hb hy)
    (V : Valuation τ sig Val) (hy' : ∀ op ∈ post, Proc.devRef .tc y ∉ op.writes)
    (ha' : ∀ op ∈ binary a b y f ha hb hy :: post, Proc.devRef .tc a ∉ op.writes)
    (hb' : ∀ op ∈ binary a b y f ha hb hy :: post, Proc.devRef .tc b ∉ op.writes) :
    after (pre ++ binary a b y f ha hb hy :: post) V (Proc.devRef .tc y)
      = f (after (pre ++ binary a b y f ha hb hy :: post) V (Proc.devRef .tc a))
          (after (pre ++ binary a b y f ha hb hy :: post) V (Proc.devRef .tc b)) := by
  rw [after_append]
  generalize after pre V = W
  rw [after_of_forall_not_mem (binary a b y f ha hb hy :: post) W ha', after_of_forall_not_mem (binary a b y f ha hb hy :: post) W hb',
    after_cons, after_of_forall_not_mem post _ hy', binary_result]

end Cert.Lib

end
-- ==== Proof.KernelPre.lean ====
import proofs.«130008_j46316927320539_2_alg».proof.Proof.Gen.KernelIdeal.Frame
import proofs.«130008_j46316927320539_2_alg».proof.Proof.Prefix
import proofs.«130008_j46316927320539_2_alg».proof.Proof.LibAfterStep
import Idealize.ShloMosaic.PureOps.Ideal

/-!
# What the kernel's region finds: the edge data and the transposed weights

Before its region the entry function runs six stretches of host operations. Each stretch is read here by itself, over
an arbitrary valuation of the buffers it starts from: the exponential linear unit of the edge weights; the clamp's
condition; the clamped weights; the edge words, all weights and the degrees; the inverse square roots; the normalised
weights and the transposed weight matrix. Chained, they give the buffers the region and the later operations read as
the named functions of the argument arrays.
-/

noncomputable section
namespace Cert.KernelIdeal.KPre

open Idealize.ShloMosaic Idealize.ShloMosaic.TcCoe Idealize.SL.Sem Idealize.ShloMosaic.StableHlo Cert.KernelIdeal Cert.KernelIdeal.Gen

variable {F : FTy → Type} [FloatOps F]

/-- The fourth stretch with its three concatenations named. -/
abbrev hostOps0_3' : List (HloOp τ sig (Elt F)) :=
  [ StableHlo.nullary main_v4 (iotaInDim S50000 32 0),
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v4 main_v7 (Spec.catI : (⟨S800000, .i32⟩ : BufTy).Contents (Elt F) → (⟨S50000, .i32⟩ : BufTy).Contents (Elt F) → (⟨S850000, .i32⟩ : BufTy).Contents (Elt F)),
    StableHlo.unary main_arg1 main_v8 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v8 main_v9 rfl shapeCasts_S1x800000_S800000,
    StableHlo.binary main_v9 main_v4 main_v10 (Spec.catI : (⟨S800000, .i32⟩ : BufTy).Contents (Elt F) → (⟨S50000, .i32⟩ : BufTy).Contents (Elt F) → (⟨S850000, .i32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v3 main_v11 main_v12 (Spec.catF : (⟨S800000, .f32⟩ : BufTy).Contents (Elt F) → (⟨S50000, .f32⟩ : BufTy).Contents (Elt F) → (⟨S850000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v10 main_v14 (broadcastInDim S850000x1 ![0] bcast_S850000_S850000x1_0 : (⟨S850000, .i32⟩ : BufTy).Contents (Elt F) → (⟨S850000x1, .i32⟩ : BufTy).Contents (Elt F)),
    StableHlo.ternary main_v13 main_v14 main_v12 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_3 (constant S_ .f32 0x00000000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.unary main_v15 main_v18 (Host.rsqrt : (⟨S50000, .f32⟩ : BufTy).Contents (Elt F) → (⟨S50000, .f32⟩ : BufTy).Contents (Elt F)),
    StableHlo.nullary main_cst_4 (constant S_ .f32 0x00000000#32) ]

theorem hostOps0_3_eq : (hostOps0_3 : List (HloOp τ sig (Elt F))) = hostOps0_3' := rfl

/-! ## First stretch: the exponential linear unit -/

theorem s0_v0 (W : Valuation τ sig (Elt F)) :
    after hostOps0 W (Proc.devRef .tc main_v0) = Spec.eluOf (W (Proc.devRef .tc main_arg2)) := by
  simp only [hostOps0]
  after_results_simp
  rfl

theorem s0_arg1 (W : Valuation τ sig (Elt F)) :
    after hostOps0 W (Proc.devRef .tc main_arg1) = W (Proc.devRef .tc main_arg1) := by
  simp only [hostOps0]
  after_results_simp

theorem s0_arg2 (W : Valuation τ sig (Elt F)) :
    after hostOps0 W (Proc.devRef .tc main_arg2) = W (Proc.devRef .tc main_arg2) := by
  simp only [hostOps0]
  after_results_simp

theorem s0_arg3 (W : Valuation τ sig (Elt F)) :
    after hostOps0 W (Proc.devRef .tc main_arg3) = W (Proc.devRef .tc main_arg3) := by
  simp only [hostOps0]
  after_results_simp

/-! ## Second stretch: the clamp's condition and literal -/

theorem s1_v2 (W : Valuation τ sig (Elt F)) :
    after hostOps0_1 W (Proc.devRef .tc main_v2) = cmpf .ole (W (Proc.devRef .tc main_v0)) (broadcastInDim S800000 ![] bcast_S_S800000 (constant S_ .f32 0x00000000#32)) := by
  simp only [hostOps0_1]
  after_results_simp

theorem s1_cst_0 (W : Valuation τ sig (Elt F)) :
    after hostOps0_1 W (Proc.devRef .tc main_cst_0) = constant S_ .f32 0x33D6BF95#32 := by
  simp only [hostOps0_1]
  after_results_simp

theorem s1_arg1 (W : Valuation τ sig (Elt F)) :
    after hostOps0_1 W (Proc.devRef .tc main_arg1) = W (Proc.devRef .tc main_arg1) := by
  simp only [hostOps0_1]
  after_results_simp

theorem s1_arg2 (W : Valuation τ sig (Elt F)) :
    after hostOps0_1 W (Proc.devRef .tc main_arg2) = W (Proc.devRef .tc main_arg2) := by
  simp only [hostOps0_1]
  after_results_simp

theorem s1_arg3 (W : Valuation τ sig (Elt F)) :
    after hostOps0_1 W (Proc.devRef .tc main_arg3) = W (Proc.devRef .tc main_arg3) := by
  simp only [hostOps0_1]
  after_results_simp

/-! ## Third stretch: the clamped weights -/

theorem s2_v3 (W : Valuation τ sig (Elt F)) :
    after hostOps0_2 W (Proc.devRef .tc main_v3)
      = select (W (Proc.devRef .tc main_v2)) (broadcastInDim S800000 ![] bcast_S_S800000 (W (Proc.devRef .tc main_cst_0))) (W (Proc.devRef .tc main_arg2)) := by
  simp only [hostOps0_2]
  after_results_simp
  rfl

theorem s2_arg1 (W : Valuation τ sig (Elt F)) :
    after hostOps0_2 W (Proc.devRef .tc main_arg1) = W (Proc.devRef .tc main_arg1) := by
  simp only [hostOps0_2]
  after_results_simp

theorem s2_arg3 (W : Valuation τ sig (Elt F)) :
    after hostOps0_2 W (Proc.devRef .tc main_arg3) = W (Proc.devRef .tc main_arg3) := by
  simp only [hostOps0_2]
  after_results_simp

/-! ## Fourth stretch: the edge words, all weights, the degrees -/

theorem s3_v7 (W : Valuation τ sig (Elt F)) :
    after hostOps0_3' W (Proc.devRef .tc main_v7) = Spec.srcOf (W (Proc.devRef .tc main_arg1)) := by
  simp only [hostOps0_3']
  after_results_simp
  rfl

theorem s3_v10 (W : Valuation τ sig (Elt F)) :
    after hostOps0_3' W (Proc.devRef .tc main_v10) = Spec.tgtOf (W (Proc.devRef .tc main_arg1)) := by
  simp only [hostOps0_3']
  after_results_simp
  rfl

theorem s3_v12 (W : Valuation τ sig (Elt F)) :
    after hostOps0_3' W (Proc.devRef .tc main_v12)
      = Spec.catF (W (Proc.devRef .tc main_v3)) (broadcastInDim S50000 ![] bcast_S_S50000 (constant S_ .f32 0x3F800000#32)) := by
  simp only [hostOps0_3']
  after_results_simp

/-- The degrees over a valuation: the weights scattered by the target words. -/
def degW (W : Valuation τ sig (Elt F)) : FVec F S50000 .f32 :=
  Host.scatterAdd scatter_S50000_S850000x1_S850000_n_0_0_1 (broadcastInDim S50000 ![] bcast_S_S50000 (constant S_ .f32 0x00000000#32)) (Spec.colOf (Spec.tgtOf (W (Proc.devRef .tc main_arg1))))
    (Spec.catF (W (Proc.devRef .tc main_v3)) (broadcastInDim S50000 ![] bcast_S_S50000 (constant S_ .f32 0x3F800000#32)))

theorem s3_v17 (W : Valuation τ sig (Elt F)) :
    after hostOps0_3' W (Proc.devRef .tc main_v17) = cmpf .ogt (degW W) (broadcastInDim S50000 ![] bcast_S_S50000 (constant S_ .f32 0x00000000#32)) := by
  simp only [hostOps0_3']
  after_results_simp
  rfl

theorem s3_v18 (W : Valuation τ sig (Elt F)) :
    after hostOps0_3' W (Proc.devRef .tc main_v18) = Host.rsqrt (degW W) := by
  simp only [hostOps0_3']
  after_results_simp
  rfl

theorem s3_cst_4 (W : Valuation τ sig (Elt F)) :
    after hostOps0_3' W (Proc.devRef .tc main_cst_4) = constant S_ .f32 0x00000000#32 := by
  simp only [hostOps0_3']
  after_results_simp

theorem s3_arg3 (W : Valuation τ sig (Elt F)) :
    after hostOps0_3' W (Proc.devRef .tc main_arg3) = W (Proc.devRef .tc main_arg3) := by
  simp only [hostOps0_3']
  after_results_simp

/-! ## Fifth stretch: the inverse square roots where the degree is positive -/

theorem s4_v19 (W : Valuation τ sig (Elt F)) :
    after hostOps0_4 W (Proc.devRef .tc main_v19)
      = select (W (Proc.devRef .tc main_v17)) (W (Proc.devRef .tc main_v18)) (broadcastInDim S50000 ![] bcast_S_S50000 (W (Proc.devRef .tc main_cst_4))) := by
  simp only [hostOps0_4]
  after_results_simp
  rfl

theorem s4_v7 (W : Valuation τ sig (Elt F)) :
    after hostOps0_4 W (Proc.devRef .tc main_v7) = W (Proc.devRef .tc main_v7) := by
  simp only [hostOps0_4]
  after_results_simp

theorem s4_v10 (W : Valuation τ sig (Elt F)) :
    after hostOps0_4 W (Proc.devRef .tc main_v10) = W (Proc.devRef .tc main_v10) := by
  simp only [hostOps0_4]
  after_results_simp

theorem s4_v12 (W : Valuation τ sig (Elt F)) :
    after hostOps0_4 W (Proc.devRef .tc main_v12) = W (Proc.devRef .tc main_v12) := by
  simp only [hostOps0_4]
  after_results_simp

theorem s4_arg3 (W : Valuation τ sig (Elt F)) :
    after hostOps0_4 W (Proc.devRef .tc main_arg3) = W (Proc.devRef .tc main_arg3) := by
  simp only [hostOps0_4]
  after_results_simp

/-! ## Sixth stretch: the normalised weights, the transposed weight matrix -/

theorem s5_v35 (W : Valuation τ sig (Elt F)) :
    after hostOps0_5 W (Proc.devRef .tc main_v35)
      = mulf (mulf (Host.gather gather_S50000_S850000x1_S850000_n_0_n_n_0_1_1 (W (Proc.devRef .tc main_v19)) (Spec.colOf (Spec.wrapOf (W (Proc.devRef .tc main_v7))))) (W (Proc.devRef .tc main_v12)))
          (Host.gather gather_S50000_S850000x1_S850000_n_0_n_n_0_1_1 (W (Proc.devRef .tc main_v19)) (Spec.colOf (Spec.wrapOf (W (Proc.devRef .tc main_v10))))) := by
  simp only [hostOps0_5]
  after_results_simp
  rfl

theorem s5_v36 (W : Valuation τ sig (Elt F)) :
    after hostOps0_5 W (Proc.devRef .tc main_v36) = transpose S256x128 [1, 0] (W (Proc.devRef .tc main_arg3)) transposes_S128x256_S256x128_1_0 := by
  simp only [hostOps0_5]
  after_results_simp

theorem s5_v7 (W : Valuation τ sig (Elt F)) :
    after hostOps0_5 W (Proc.devRef .tc main_v7) = W (Proc.devRef .tc main_v7) := by
  simp only [hostOps0_5]
  after_results_simp

theorem s5_v10 (W : Valuation τ sig (Elt F)) :
    after hostOps0_5 W (Proc.devRef .tc main_v10) = W (Proc.devRef .tc main_v10) := by
  simp only [hostOps0_5]
  after_results_simp

/-! ## The six stretches chained -/

variable (m : (ℓ : Loc nD τ sig) → Buf (Elt F) ℓ)

/-- The valuation the region is entered with is the six stretches applied in turn to the launch contents. -/
theorem V0_eq (c : Dev nD) :
    V0 m c = after hostOps0_5 (after hostOps0_4 (after hostOps0_3' (after hostOps0_2 (after hostOps0_1 (after hostOps0 (fun b => m (c, b))))))) := by
  show after (List.flatten [hostOps0, hostOps0_1, hostOps0_2, hostOps0_3, hostOps0_4, hostOps0_5]) (fun b => m (c, b)) = _
  rw [hostOps0_3_eq]
  simp only [List.flatten_cons, List.flatten_nil, List.append_nil, Cert.Lib.after_append]

/-- THE SOURCE WORDS the later operations read. -/
theorem V_src (c : Dev nD) : V m c main_v7 = Spec.srcOf (m ((c : Thread nD τ).loc main_arg1)) := by
  show V0 m c (Proc.devRef .tc main_v7) = _
  rw [V0_eq, s5_v7, s4_v7, s3_v7, s2_arg1, s1_arg1, s0_arg1]

/-- THE TARGET WORDS the later operations read. -/
theorem V_tgt (c : Dev nD) : V m c main_v10 = Spec.tgtOf (m ((c : Thread nD τ).loc main_arg1)) := by
  show V0 m c (Proc.devRef .tc main_v10) = _
  rw [V0_eq, s5_v10, s4_v10, s3_v10, s2_arg1, s1_arg1, s0_arg1]

/-- THE TRANSPOSED WEIGHTS the region reads. -/
theorem V_wt (c : Dev nD) :
    V m c main_v36 = transpose S256x128 [1, 0] (m ((c : Thread nD τ).loc main_arg3)) transposes_S128x256_S256x128_1_0 := by
  show V0 m c (Proc.devRef .tc main_v36) = _
  rw [V0_eq, s5_v36, s4_arg3, s3_arg3, s2_arg3, s1_arg3, s0_arg3]

/-- THE NORMALISED WEIGHTS the later operations read. -/
theorem V_nrm (c : Dev nD) :
    V m c main_v35 = Spec.nrmOf (m ((c : Thread nD τ).loc main_arg1)) (m ((c : Thread nD τ).loc main_arg2)) := by
  show V0 m c (Proc.devRef .tc main_v35) = _
  rw [V0_eq, s5_v35, s4_v19, s4_v7, s4_v10, s4_v12, s3_v17, s3_v18, s3_cst_4, s3_v7, s3_v10, s3_v12]
  unfold degW
  rw [s2_v3, s2_arg1, s1_v2, s1_cst_0, s1_arg1, s1_arg2, s0_v0, s0_arg1, s0_arg2]
  rfl

end Cert.KernelIdeal.KPre
end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KernelValue.lean ====
import proofs.«130008_j46316927320539_2_alg».proof.Proof.Gen.KernelIdeal.Frame
import proofs.«130008_j46316927320539_2_alg».proof.Proof.LibMatmulPlain
import Idealize.ShloMosaic.Lib.Pipeline.Value
import Idealize.ShloMosaic.Lib.ValueIdx
import Idealize.ShloMosaic.PureOps.Ideal.Laws

/-!
# What the projection kernel leaves in its output array

The kernel runs over ten grid points. At point `t` it reads rows `5000 t … 5000 t + 4999` of the node features
(a `5000 × 256` block) and the whole `256 × 128` transposed weight matrix, multiplies them into a zero accumulator and
writes the `5000 × 128` product back as rows `5000 t … 5000 t + 4999` of the output. The ten row blocks tile the
`50000 × 128` output, so after the run entry `(n, q)` of the output is `Σ_k x (n, k) · wt (k, q)`.
-/

set_option maxRecDepth 16384

noncomputable section

namespace Cert.KernelIdeal.ProjValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (m : (ℓ : Loc nD τ sig) → Buf (Elt Ideal) ℓ)

/-- The product of the node features with the transposed weights, entry by entry. -/
def proj (x : S50000x256.Idx → EReal) (wt : S256x128.Idx → EReal) : S50000x128.Idx → EReal := fun i =>
  ∑ k : Fin 256, x (ix2 (⟨(i 0).val, (i 0).isLt⟩ : Fin 50000) k) * wt (ix2 k (⟨(i 1).val, (i 1).isLt⟩ : Fin 128))

theorem proj_apply (x : S50000x256.Idx → EReal) (wt : S256x128.Idx → EReal) (n : Fin 50000) (q : Fin 128) :
    proj x wt (ix2 n q) = ∑ k : Fin 256, x (ix2 n k) * wt (ix2 k q) := rfl

/-- The body's one stored value at an entry: the rounding to the narrow format is the identity on extended reals,
    the product into the zero accumulator is the sum over the contracted axis. -/
theorem pay_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Cert.Lib.matmul_plain_zero_apply 5000 256 128 none _ _ p q).trans ?_
  refine Finset.sum_congr rfl fun k _ => ?_
  rw [truncf_apply, truncf_apply, shapeCast_self]

theorem hz : (![0, 0] : Fin 2 → Nat) = fun _ => 0 := funext fun a => by fin_cases a <;> rfl

/-- The index maps over the grid: the feature block and the output block are both row block `t`, the weight block
    is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := by have h := t.isLt; have e : cfg0.N = 10 := N_0; omega

/-- Row `p` of block `t` is row `5000 t + p` of the array. -/
def rowOf (t : Fin cfg0.N) (p : Fin 5000) : Fin 50000 := ⟨t.val * 5000 + p.val, by have := t_lt t; have := p.isLt; omega⟩

theorem emb0 (t : Fin cfg0.N) (p : Fin 5000) (k : Fin 256) :
    ((cfg0.win 0).blk t).view.emb (ix2 p k) = ix2 (rowOf t p) k := by
  obtain ⟨e0, e1, -, -, -, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 256 + 1 * k.val = k.val; omega

theorem emb1 (t : Fin cfg0.N) (k : Fin 256) (q : Fin 128) :
    ((cfg0.win 1).blk t).view.emb (ix2 k q) = ix2 k q := by
  obtain ⟨-, -, e0, e1, -, -⟩ := idx_facts t
  funext a; apply Fin.ext
  match a with
  | ⟨0, _⟩ => show win0_1.index t (0 : Fin 2) * 256 + 1 * k.val = k.val; omega
  | ⟨1, _⟩ => show win0_1.index t (1 : Fin 2) * 128 + 1 * q.val = q.val; omega

theorem emb2 (t : Fin cfg0.N) (p : Fin 5000) (q : Fin 128) :
    ((cfg0.win 2).blk t).view.emb (ix2 p q) = ix2 (rowOf t p) q := by
  obtain ⟨-, -, -, -, e0, e1⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- A block of the features read at an entry. -/
theorem iblk0_apply (c : Dev nD) (t : Fin cfg0.N) (p : Fin 5000) (k : Fin 256) :
    iblk m c 0 t (ix2 p k) = V m c main_arg0 (ix2 (rowOf t p) k) := by
  show V m c main_arg0 (((cfg0.win 0).blk t).view.emb (ix2 p k)) = _
  rw [emb0]

/-- The weights' block is the whole matrix. -/
theorem iblk1_apply (c : Dev nD) (t : Fin cfg0.N) (k : Fin 256) (q : Fin 128) :
    iblk m c 1 t (ix2 k q) = V m c main_v36 (ix2 k q) := by
  show V m c main_v36 (((cfg0.win 1).blk t).view.emb (ix2 k q)) = _
  rw [emb1]

/-- WHAT POINT `t` WRITES BACK is block `t` of the product of the arrays as the region finds them. -/
theorem flushed_eq (c : Dev nD) (t : Fin cfg0.N) :
    (dats m 0 c).flushed 2 t = ((cfg0.win 2).blk t).view.read (Elt Ideal) (proj (V m c main_arg0) (V m c main_v36)) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  show k0_pay1 (F := Ideal) (iblk m c 0 t) (iblk m c 1 t) (ix2 p q)
    = proj (V m c main_arg0) (V m c main_v36) (((cfg0.win 2).blk t).view.emb (ix2 p q))
  rw [emb2, proj_apply]
  refine (pay_apply _ _ p q).trans ?_
  refine Finset.sum_congr rfl fun k _ => ?_
  rw [iblk0_apply, iblk1_apply]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v37).slice (win0_2.rect t)).set ↔ _
  rw [View.set_slice_whole, Rect.mem_set_unit]
  exact Iff.rfl

/-- The ten row blocks cover the array: row `r` is in block `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by omega⟩
  obtain ⟨-, -, -, -, e0, e1⟩ := idx_facts t
  have et : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the run: the product of the arrays the region found. -/
theorem final (c : Dev nD) : (dats m 0 c).arrAt 2 cfg0.N = proj (V m c main_arg0) (V m c main_v36) :=
  (dats m 0 c).arrAt_eq_of_cover 2 _ (fun t _ => flushed_eq m c t) cover

end Cert.KernelIdeal.ProjValue

end
-- ==== Proof.LibRowGather.lean ====
import Idealize.ShloMosaic.Lib.ValueIdx

/-!
# A gather of whole rows, read at an index

`stablehlo.gather` with offset axes the result's trailing ones, collapsed slice axis `[0]`, start index map `[0]`,
index vector axis `1` and slice sizes one row: what `x[idx]` lowers to for an operand `x : [N, C]` (or
`[N, H, D]`) and a column `idx : [E, 1]` of row numbers. StableHLO's operand index is, axis by axis, the clamped
start plus the batching coordinate plus the offset coordinate. Here there is no batching axis; on axis 0 (named by the
start index map, collapsed) the start is the word `idx[e, 0]` read as a signed integer, taken as a natural number
(a negative one is `0`) and clamped to `N − 1` so that the one-row slice fits, and the offset coordinate is `0`;
on every other axis (not named by the start index map, kept) the start is `0` and the offset coordinate is the
result's own coordinate on that axis. So result entry `(e, c)` is `x (min idx[e, 0] (N − 1), c)`:
`gather_rows2_apply` for a rank-2 operand, `gather_rows3_apply` for a rank-3 one. The rank-1 case (no kept axis) is
the library's `gather_take_apply`.
-/

noncomputable section
open scoped BigOperators
open Idealize.ShloMosaic Idealize.ShloMosaic.ValueIdx

namespace Cert.Lib
variable {α : Type}

/-- The dimension numbers of a row gather: operand `[N, C]`, start indices `[E, 1]`, result `[E, C]`. Axis 0 of the operand
    is collapsed and is the one the start index names; axis 1 is kept whole (slice sizes `[1, C]`) and becomes the
    result's offset axis 1; the result's axis 0 runs over the start indices. The conditions `wf` are decided on a
    program's literal shapes. -/
abbrev rowGather2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`, rank 2: the operand's entry in column `c` of the row the start index `idx[e, 0]`
    names — read signed, as a natural number, clamped into `[0, N − 1]`. On axis 0 the operand index is the clamped
    start alone (no batching axis; the axis is collapsed, so no offset); on axis 1 it is the offset coordinate `c` alone
    (the start index map does not name the axis, so the start is `0`). -/
theorem gather_rows2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather2 N E C wf).start (ix2 e c) idx 0 + (rowGather2 N E C wf).batchCoord (ix2 e c) 0
      + (rowGather2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N E C wf).startIndexMap from List.mem_singleton.mpr rfl)]
    have hsi : (rowGather2 N E C wf).siIdx (ix2 e c) ⟨List.idxOf (0 : Fin 2) (rowGather2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather2 N E C wf).start (ix2 e c) idx 1 + (rowGather2 N E C wf).batchCoord (ix2 e c) 1
      + (rowGather2 N E C wf).offCoord (ix2 e c) 1 = c.val
    rw [GatherDims.batchCoord_eq_zero _ _ _ List.not_mem_nil]
    unfold GatherDims.start
    have h10 : (1 : Fin 2) ∉ ([0] : List (Fin 2)) := by decide
    rw [dif_neg (show ¬ (1 : Fin 2) ∈ (rowGather2 N E C wf).startIndexMap from h10)]
    unfold GatherDims.offCoord
    rw [dif_pos (show (1 : Fin 2) ∈ (rowGather2 N E C wf).sKept from
      (GatherDims.mem_sKept _ _).mpr ⟨h10, List.not_mem_nil⟩)]
    simp only [Nat.add_zero, Nat.zero_add]
    rfl

/-- The dimension numbers of a row gather of a rank-3 operand: operand `[N, H, D]`, start indices `[E, 1]`, result
    `[E, H, D]`. Axis 0 of the operand is collapsed and is the one the start index names; axes 1 and 2 are kept whole
    (slice sizes `[1, H, D]`) and become the result's offset axes 1 and 2. -/
abbrev rowGather3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- THE ROW GATHER READ AT `(e, h, d)`, rank 3: the operand's entry `(h, d)` of the row the start index `idx[e, 0]`
    names — read signed, as a natural number, clamped into `[0, N − 1]`. Axis 0 as in the rank-2 case; on axes 1 and 2
    the start is `0` and the offset coordinate is the result's coordinate on the offset axis in the same position. -/
theorem gather_rows3_apply {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowGather3 N E H D wf) x idx (ix3 e h d)
      = x (ix3 (⟨min (idx (ix2 e (0 : Fin 1))).toInt.toNat (N - 1), by omega⟩ : Fin N) h d) := by
  unfold Host.gather
  congr 1
  funext a
  refine Fin.ext ?_
  have h10 : (1 : Fin 3) ∉ ([0] : List (Fin 3)) := by decide
  have h20 : (2 : Fin 3) ∉ ([0] : List (Fin 3)) := by decide
  match a with
  | ⟨0, _⟩ =>
    show (rowGather3 N E H D wf).start (ix3 e h d) idx 0 + (rowGather3 N E H D wf).batchCoord (ix3 e h d) 0
      + (rowGather3 N E H D wf).offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 N E H D wf).startIndexMap from List.mem_singleton.mpr rfl)]
    have hsi : (rowGather3 N E H D wf).siIdx (ix3 e h d)
        ⟨List.idxOf (0 : Fin 3) (rowGather3 N E H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather3 N E H D wf).start (ix3 e h d) idx 1 + (rowGather3 N E H D wf).batchCoord (ix3 e h d) 1
      + (rowGather3 N E H D wf).offCoord (ix3 e h d) 1 = h.val
    rw [GatherDims.batchCoord_eq_zero _ _ _ List.not_mem_nil]
    unfold GatherDims.start
    rw [dif_neg (show ¬ (1 : Fin 3) ∈ (rowGather3 N E H D wf).startIndexMap from h10)]
    unfold GatherDims.offCoord
    rw [dif_pos (show (1 : Fin 3) ∈ (rowGather3 N E H D wf).sKept from
      (GatherDims.mem_sKept _ _).mpr ⟨h10, List.not_mem_nil⟩)]
    simp only [Nat.add_zero, Nat.zero_add]
    rfl
  | ⟨2, _⟩ =>
    show (rowGather3 N E H D wf).start (ix3 e h d) idx 2 + (rowGather3 N E H D wf).batchCoord (ix3 e h d) 2
      + (rowGather3 N E H D wf).offCoord (ix3 e h d) 2 = d.val
    rw [GatherDims.batchCoord_eq_zero _ _ _ List.not_mem_nil]
    unfold GatherDims.start
    rw [dif_neg (show ¬ (2 : Fin 3) ∈ (rowGather3 N E H D wf).startIndexMap from h20)]
    unfold GatherDims.offCoord
    rw [dif_pos (show (2 : Fin 3) ∈ (rowGather3 N E H D wf).sKept from
      (GatherDims.mem_sKept _ _).mpr ⟨h20, List.not_mem_nil⟩)]
    simp only [Nat.add_zero, Nat.zero_add]
    rfl

end Cert.Lib
end
-- ==== Proof.LibRowScatterAdd.lean ====
import Idealize.ShloMosaic.Lib.ValueIdx
import Idealize.ShloMosaic.PureOps.Ideal

/-!
# Accumulating scatters of whole rows, entry by entry, over the extended reals

An accumulating scatter adds every entry of an update array into the operand entry it lands at. Here the update array
is a stack of rows, `[E, C]` (resp. `[E, H, D]`), the operand is `[N, C]` (resp. `[N, H, D]`), and an `[E, 1]`
array of integer words says, for each update row `e`, which operand row it is added into: update entry `(e, c)` lands
at `(w e, c)`, where `w e` is the word of row `e` read as a SIGNED integer and NOT clamped. An update row whose word is
negative or at least `N` lands nowhere and contributes nothing.

Over the extended reals the order of the additions does not matter, so entry `(n, c)` of the result is

  `x (n, c) + Σ_{e : w e = n} upd (e, c)`,

written below as a sum over all update rows of an `if`. The proof has two steps: the landing index of an update entry
is computed axis by axis (start of the window plus coordinate inside the window), which says exactly when it equals a
given operand index; then the sum over the update entries that land there is split into the sum over the coordinates,
and the sums over the trailing coordinates collapse to the one term whose coordinates agree.
-/

noncomputable section
open scoped BigOperators
open Idealize.ShloMosaic Idealize.ShloMosaic.ValueIdx

namespace Cert.Lib

/-! ## Rank 2: operand `[N, C]`, words `[E, 1]`, updates `[E, C]` -/

/-- dimension numbers of an accumulating row scatter: operand [N, C], scatter indices [E, 1], updates [E, C]: the
    updates' axis 1 is the window axis, the operand's axis 0 is inserted and is the one the index words name. -/
abbrev rowScatter2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section R2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the word of update row `e`, read signed. -/
theorem rowScatter2_start0 :
    (rowScatter2 N E C wf).start (ix2 e c') idx 0 = (idx (ix2 e (0 : Fin 1))).toInt := by
  unfold ScatterDims.start
  rw [dif_pos (show (0 : Fin 2) ∈ (rowScatter2 N E C wf).scatterDimsToOperandDims from List.mem_singleton.mpr rfl)]
  have hsi : (rowScatter2 N E C wf).siIdx (ix2 e c') ⟨List.idxOf (0 : Fin 2) (rowScatter2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at `0`: the index words name rows only. -/
theorem rowScatter2_start1 :
    (rowScatter2 N E C wf).start (ix2 e c') idx 1 = 0 := by
  unfold ScatterDims.start
  rw [dif_neg]
  intro h
  exact absurd (congrArg Fin.val (List.mem_singleton.mp h)) Nat.one_ne_zero

/-- The row axis is inserted: an update entry has window coordinate `0` there. -/
theorem rowScatter2_window0 :
    (rowScatter2 N E C wf).window (ix2 e c') 0 = 0 := by
  unfold ScatterDims.window
  rw [dif_neg]
  intro h
  have := (List.mem_filter.mp h).2
  simp at this

/-- On the column axis the window coordinate of update entry `(e, c')` is its own column `c'`. -/
theorem rowScatter2_window1 :
    (rowScatter2 N E C wf).window (ix2 e c') 1 = c'.val := by
  unfold ScatterDims.window
  rw [dif_pos (show (1 : Fin 2) ∈ (rowScatter2 N E C wf).sKept from
    List.mem_filter.mpr ⟨List.mem_finRange _, by simp⟩)]
  rfl

/-- WHERE AN UPDATE ENTRY LANDS: entry `(e, c')` lands at `(n, c)` exactly when the word of row `e`, read signed, is `n`
    and the columns agree. A word outside `[0, N)` lands nowhere, so it satisfies neither side for any `n`. -/
theorem rowScatter2_resultIdx_iff (n : Fin N) (c : Fin C) :
    (rowScatter2 N E C wf).resultIdx? (ix2 e c') idx = some (ix2 n c)
      ↔ (idx (ix2 e (0 : Fin 1))).toInt = (n.val : ℤ) ∧ c' = c := by
  have s0 := rowScatter2_start0 wf idx e c'
  have s1 := rowScatter2_start1 wf idx e c'
  have w0 := rowScatter2_window0 wf e c'
  have w1 := rowScatter2_window1 wf e c'
  unfold ScatterDims.resultIdx?
  split_ifs with h
  · rw [Option.some.injEq]
    constructor
    · intro heq
      have h0 : ((rowScatter2 N E C wf).start (ix2 e c') idx 0 + (rowScatter2 N E C wf).window (ix2 e c') 0).toNat = n.val :=
        congrArg Fin.val (congrFun heq 0)
      have h1 : ((rowScatter2 N E C wf).start (ix2 e c') idx 1 + (rowScatter2 N E C wf).window (ix2 e c') 1).toNat = c.val :=
        congrArg Fin.val (congrFun heq 1)
      have p0 := (h 0).1
      rw [s0, w0] at h0 p0
      rw [s1, w1] at h1
      refine ⟨by omega, Fin.ext (by omega)⟩
    · rintro ⟨hn, hc⟩
      funext a; refine Fin.ext ?_
      match a with
      | ⟨0, _⟩ =>
        show ((rowScatter2 N E C wf).start (ix2 e c') idx 0 + (rowScatter2 N E C wf).window (ix2 e c') 0).toNat = n.val
        rw [s0, w0]; omega
      | ⟨1, _⟩ =>
        show ((rowScatter2 N E C wf).start (ix2 e c') idx 1 + (rowScatter2 N E C wf).window (ix2 e c') 1).toNat = c.val
        rw [s1, w1, hc]; omega
  · constructor
    · intro heq; exact absurd heq (by simp)
    · rintro ⟨hn, hc⟩
      refine absurd ?_ h
      intro a
      match a with
      | ⟨0, _⟩ =>
        show 0 ≤ (rowScatter2 N E C wf).start (ix2 e c') idx 0 + (rowScatter2 N E C wf).window (ix2 e c') 0
          ∧ (rowScatter2 N E C wf).start (ix2 e c') idx 0 + (rowScatter2 N E C wf).window (ix2 e c') 0 < (N : ℤ)
        rw [s0, w0]; have := n.isLt; omega
      | ⟨1, _⟩ =>
        show 0 ≤ (rowScatter2 N E C wf).start (ix2 e c') idx 1 + (rowScatter2 N E C wf).window (ix2 e c') 1
          ∧ (rowScatter2 N E C wf).start (ix2 e c') idx 1 + (rowScatter2 N E C wf).window (ix2 e c') 1 < (C : ℤ)
        rw [s1, w1]; have := c'.isLt; omega

end R2

/-- THE ROW SCATTER AT `(n, c)`, rank 2: the operand's entry plus the sum, over the update rows `e` whose word read
    signed equals `n`, of `upd (e, c)`. The sum over all update entries that land at `(n, c)` is split by coordinates
    and the column coordinate is fixed to `c` by the characterisation above. -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatter2 N E C wf) x idx upd (ix2 n c)
      = x (ix2 n c) + ∑ e : Fin E, if (idx (ix2 e (0 : Fin 1))).toInt = (n.val : ℤ) then upd (ix2 e c) else 0 := by
  show x (ix2 n c) + ∑ j ∈ Finset.univ.filter (fun j => (rowScatter2 N E C wf).resultIdx? j idx = some (ix2 n c)), upd j = _
  congr 1
  rw [Finset.sum_filter, sum_idx2]
  refine Finset.sum_congr rfl fun e _ => ?_
  have hinner : ∀ c' : Fin C,
      (if (rowScatter2 N E C wf).resultIdx? (ix2 e c') idx = some (ix2 n c) then upd (ix2 e c') else 0)
        = if c' = c then (if (idx (ix2 e (0 : Fin 1))).toInt = (n.val : ℤ) then upd (ix2 e c) else 0) else 0 := by
    intro c'
    by_cases hc : c' = c
    · subst hc
      rw [if_pos rfl]
      exact if_congr ((rowScatter2_resultIdx_iff wf idx e c' n c').trans (and_iff_left rfl)) rfl rfl
    · rw [if_neg hc, if_neg]
      intro hr
      exact hc ((rowScatter2_resultIdx_iff wf idx e c' n c).mp hr).2
  rw [Finset.sum_congr rfl fun c' _ => hinner c', Finset.sum_ite_eq' Finset.univ c]
  rw [if_pos (Finset.mem_univ c)]

/-! ## Rank 3: operand `[N, H, D]`, words `[E, 1]`, updates `[E, H, D]` -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- dimension numbers of an accumulating row scatter: operand [N, H, D], scatter indices [E, 1], updates [E, H, D]: the
    updates' axes 1 and 2 are the window axes, the operand's axis 0 is inserted and is the one the index words name. -/
abbrev rowScatter3 (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section R3
variable {N E H D w : Nat}
  (wf : ScatterDims.WF ⟨3, ![N, H, D]⟩ ⟨2, ![E, 1]⟩ ⟨3, ![E, H, D]⟩ [1, 2] [0] [0] 1)
  (idx : IVec ⟨2, ![E, 1]⟩ w) (e : Fin E) (h' : Fin H) (d' : Fin D)

/-- On the row axis the window of update entry `(e, h', d')` starts at the word of update row `e`, read signed. -/
theorem rowScatter3_start0 :
    (rowScatter3 N E H D wf).start (ix3 e h' d') idx 0 = (idx (ix2 e (0 : Fin 1))).toInt := by
  unfold ScatterDims.start
  rw [dif_pos (show (0 : Fin 3) ∈ (rowScatter3 N E H D wf).scatterDimsToOperandDims from List.mem_singleton.mpr rfl)]
  have hsi : (rowScatter3 N E H D wf).siIdx (ix3 e h' d') ⟨List.idxOf (0 : Fin 3) (rowScatter3 N E H D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis every window starts at `0`. -/
theorem rowScatter3_start1 :
    (rowScatter3 N E H D wf).start (ix3 e h' d') idx 1 = 0 := by
  unfold ScatterDims.start
  rw [dif_neg]
  intro hm
  exact absurd (congrArg Fin.val (List.mem_singleton.mp hm)) Nat.one_ne_zero

/-- On the third axis every window starts at `0`. -/
theorem rowScatter3_start2 :
    (rowScatter3 N E H D wf).start (ix3 e h' d') idx 2 = 0 := by
  unfold ScatterDims.start
  rw [dif_neg]
  intro hm
  exact absurd (congrArg Fin.val (List.mem_singleton.mp hm)) (by norm_num)

/-- The row axis is inserted: an update entry has window coordinate `0` there. -/
theorem rowScatter3_window0 :
    (rowScatter3 N E H D wf).window (ix3 e h' d') 0 = 0 := by
  unfold ScatterDims.window
  rw [dif_neg]
  intro hm
  have := (List.mem_filter.mp hm).2
  simp at this

/-- On the second axis the window coordinate of update entry `(e, h', d')` is `h'`. -/
theorem rowScatter3_window1 :
    (rowScatter3 N E H D wf).window (ix3 e h' d') 1 = h'.val := by
  unfold ScatterDims.window
  rw [dif_pos (show (1 : Fin 3) ∈ (rowScatter3 N E H D wf).sKept from
    List.mem_filter.mpr ⟨List.mem_finRange _, by simp⟩)]
  rfl

/-- On the third axis the window coordinate of update entry `(e, h', d')` is `d'`. -/
theorem rowScatter3_window2 :
    (rowScatter3 N E H D wf).window (ix3 e h' d') 2 = d'.val := by
  unfold ScatterDims.window
  rw [dif_pos (show (2 : Fin 3) ∈ (rowScatter3 N E H D wf).sKept from
    List.mem_filter.mpr ⟨List.mem_finRange _, by simp⟩)]
  rfl

/-- WHERE AN UPDATE ENTRY LANDS: entry `(e, h', d')` lands at `(n, h, d)` exactly when the word of row `e`, read signed,
    is `n` and the two trailing coordinates agree. A word outside `[0, N)` lands nowhere. -/
theorem rowScatter3_resultIdx_iff (n : Fin N) (h : Fin H) (d : Fin D) :
    (rowScatter3 N E H D wf).resultIdx? (ix3 e h' d') idx = some (ix3 n h d)
      ↔ (idx (ix2 e (0 : Fin 1))).toInt = (n.val : ℤ) ∧ h' = h ∧ d' = d := by
  have s0 := rowScatter3_start0 wf idx e h' d'
  have s1 := rowScatter3_start1 wf idx e h' d'
  have s2 := rowScatter3_start2 wf idx e h' d'
  have w0 := rowScatter3_window0 wf e h' d'
  have w1 := rowScatter3_window1 wf e h' d'
  have w2 := rowScatter3_window2 wf e h' d'
  unfold ScatterDims.resultIdx?
  split_ifs with hb
  · rw [Option.some.injEq]
    constructor
    · intro heq
      have h0 : ((rowScatter3 N E H D wf).start (ix3 e h' d') idx 0 + (rowScatter3 N E H D wf).window (ix3 e h' d') 0).toNat = n.val :=
        congrArg Fin.val (congrFun heq 0)
      have h1 : ((rowScatter3 N E H D wf).start (ix3 e h' d') idx 1 + (rowScatter3 N E H D wf).window (ix3 e h' d') 1).toNat = h.val :=
        congrArg Fin.val (congrFun heq 1)
      have h2 : ((rowScatter3 N E H D wf).start (ix3 e h' d') idx 2 + (rowScatter3 N E H D wf).window (ix3 e h' d') 2).toNat = d.val :=
        congrArg Fin.val (congrFun heq 2)
      have p0 := (hb 0).1
      rw [s0, w0] at h0 p0
      rw [s1, w1] at h1
      rw [s2, w2] at h2
      refine ⟨by omega, Fin.ext (by omega), Fin.ext (by omega)⟩
    · rintro ⟨hn, hh, hd⟩
      funext a; refine Fin.ext ?_
      match a with
      | ⟨0, _⟩ =>
        show ((rowScatter3 N E H D wf).start (ix3 e h' d') idx 0 + (rowScatter3 N E H D wf).window (ix3 e h' d') 0).toNat = n.val
        rw [s0, w0]; omega
      | ⟨1, _⟩ =>
        show ((rowScatter3 N E H D wf).start (ix3 e h' d') idx 1 + (rowScatter3 N E H D wf).window (ix3 e h' d') 1).toNat = h.val
        rw [s1, w1, hh]; omega
      | ⟨2, _⟩ =>
        show ((rowScatter3 N E H D wf).start (ix3 e h' d') idx 2 + (rowScatter3 N E H D wf).window (ix3 e h' d') 2).toNat = d.val
        rw [s2, w2, hd]; omega
  · constructor
    · intro heq; exact absurd heq (by simp)
    · rintro ⟨hn, hh, hd⟩
      refine absurd ?_ hb
      intro a
      match a with
      | ⟨0, _⟩ =>
        show 0 ≤ (rowScatter3 N E H D wf).start (ix3 e h' d') idx 0 + (rowScatter3 N E H D wf).window (ix3 e h' d') 0
          ∧ (rowScatter3 N E H D wf).start (ix3 e h' d') idx 0 + (rowScatter3 N E H D wf).window (ix3 e h' d') 0 < (N : ℤ)
        rw [s0, w0]; have := n.isLt; omega
      | ⟨1, _⟩ =>
        show 0 ≤ (rowScatter3 N E H D wf).start (ix3 e h' d') idx 1 + (rowScatter3 N E H D wf).window (ix3 e h' d') 1
          ∧ (rowScatter3 N E H D wf).start (ix3 e h' d') idx 1 + (rowScatter3 N E H D wf).window (ix3 e h' d') 1 < (H : ℤ)
        rw [s1, w1]; have := h'.isLt; omega
      | ⟨2, _⟩ =>
        show 0 ≤ (rowScatter3 N E H D wf).start (ix3 e h' d') idx 2 + (rowScatter3 N E H D wf).window (ix3 e h' d') 2
          ∧ (rowScatter3 N E H D wf).start (ix3 e h' d') idx 2 + (rowScatter3 N E H D wf).window (ix3 e h' d') 2 < (D : ℤ)
        rw [s2, w2]; have := d'.isLt; omega

end R3

/-- THE ROW SCATTER AT `(n, h, d)`, rank 3: the operand's entry plus the sum, over the update rows `e` whose word read
    signed equals `n`, of `upd (e, h, d)`. -/
theorem scatterAdd_rows3_apply {N E H D w : Nat} {φ : FTy}
    (wf : ScatterDims.WF ⟨3, ![N, H, D]⟩ ⟨2, ![E, 1]⟩ ⟨3, ![E, H, D]⟩ [1, 2] [0] [0] 1)
    (x : FVec Ideal ⟨3, ![N, H, D]⟩ φ) (idx : IVec ⟨2, ![E, 1]⟩ w) (upd : FVec Ideal ⟨3, ![E, H, D]⟩ φ)
    (n : Fin N) (h : Fin H) (d : Fin D) :
    Host.scatterAdd (rowScatter3 N E H D wf) x idx upd (ix3 n h d)
      = x (ix3 n h d) + ∑ e : Fin E, if (idx (ix2 e (0 : Fin 1))).toInt = (n.val : ℤ) then upd (ix3 e h d) else 0 := by
  show x (ix3 n h d) + ∑ j ∈ Finset.univ.filter (fun j => (rowScatter3 N E H D wf).resultIdx? j idx = some (ix3 n h d)), upd j = _
  congr 1
  rw [Finset.sum_filter, sum_idx3]
  refine Finset.sum_congr rfl fun e _ => ?_
  have hinner : ∀ (h' : Fin H) (d' : Fin D),
      (if (rowScatter3 N E H D wf).resultIdx? (ix3 e h' d') idx = some (ix3 n h d) then upd (ix3 e h' d') else 0)
        = if d' = d then (if h' = h then (if (idx (ix2 e (0 : Fin 1))).toInt = (n.val : ℤ) then upd (ix3 e h d) else 0) else 0) else 0 := by
    intro h' d'
    by_cases hd : d' = d
    · subst hd
      rw [if_pos rfl]
      by_cases hh : h' = h
      · subst hh
        rw [if_pos rfl]
        exact if_congr ((rowScatter3_resultIdx_iff wf idx e h' d' n h' d').trans
          ((and_congr_right_iff.mpr fun _ => and_iff_left rfl).trans (and_iff_left rfl))) rfl rfl
      · rw [if_neg hh, if_neg]
        intro hr
        exact hh ((rowScatter3_resultIdx_iff wf idx e h' d' n h d').mp hr).2.1
    · rw [if_neg hd, if_neg]
      intro hr
      exact hd ((rowScatter3_resultIdx_iff wf idx e h' d' n h d).mp hr).2.2
  have hrow : ∀ h' : Fin H,
      (∑ d' : Fin D, if (rowScatter3 N E H D wf).resultIdx? (ix3 e h' d') idx = some (ix3 n h d) then upd (ix3 e h' d') else 0)
        = if h' = h then (if (idx (ix2 e (0 : Fin 1))).toInt = (n.val : ℤ) then upd (ix3 e h d) else 0) else 0 := by
    intro h'
    rw [Finset.sum_congr rfl fun d' _ => hinner h' d', Finset.sum_ite_eq' Finset.univ d, if_pos (Finset.mem_univ d)]
  rw [Finset.sum_congr rfl fun h' _ => hrow h', Finset.sum_ite_eq' Finset.univ h, if_pos (Finset.mem_univ h)]

end Cert.Lib

end
-- ==== Proof.LibHostKeptAxis.lean ====
/-
  A reduced axis kept as a unit axis, and a unit axis spread back, by `broadcast_in_dim`: read at an entry.

  A reduction along the last axis of an `[B, C]` (or `[B, P, C]`) array leaves an `[B]` (or `[B, P]`) array; keeping the
  axis views it as `[B, 1]` (or `[B, P, 1]`), every axis mapped to itself, and spreading it back repeats it along the
  last axis. Read at an entry:
    * `[B] → [B, 1]` at `(b, u)` is the operand at `b`;           `[B, 1] → [B, C]` at `(b, c)` is the operand at `(b, 0)`;
    * `[B, P] → [B, P, 1]` at `(b, p, u)` is the operand at `(b, p)`; `[B, P, 1] → [B, P, C]` at `(b, p, c)` is the operand
      at `(b, p, 0)`.
-/
import Idealize.ShloMosaic.Lib.Pipeline.Value
import Idealize.ShloMosaic.Lib.ValueIdx

noncomputable section

namespace Cert.Lib

open Idealize.ShloMosaic Idealize.ShloMosaic.ValueIdx

variable {α : Type}

/-- A `[B]` array viewed as `[B, 1]` reads, at `(b, u)`, the operand at `b`. -/
theorem broadcastInDim_a_a1_apply {B : ℕ} (x : (⟨1, ![B]⟩ : Shape).Idx → α)
    (h : (⟨1, ![B]⟩ : Shape).BroadcastsInDim ⟨2, ![B, 1]⟩ (![0] : Fin 1 → Fin (⟨2, ![B, 1]⟩ : Shape).rank))
    (b : Fin B) (u : Fin 1) : broadcastInDim ⟨2, ![B, 1]⟩ ![0] h x (ix2 b u) = x (ix1 b) := by
  refine broadcastInDim_apply _ h x (ix2 b u) (ix1 b) fun ax => ?_
  match ax with
  | ⟨0, _⟩ =>
    show b.val = if B = 1 then 0 else b.val
    split
    · have := b.isLt; omega
    · rfl

/-- A `[B, 1]` column spread to `[B, C]` reads, at `(b, c)`, the column at `(b, 0)`. -/
theorem broadcastInDim_a1_ab_apply {B C : ℕ} (x : (⟨2, ![B, 1]⟩ : Shape).Idx → α)
    (h : (⟨2, ![B, 1]⟩ : Shape).BroadcastsInDim ⟨2, ![B, C]⟩ (![0, 1] : Fin 2 → Fin (⟨2, ![B, C]⟩ : Shape).rank))
    (b : Fin B) (c : Fin C) : broadcastInDim ⟨2, ![B, C]⟩ ![0, 1] h x (ix2 b c) = x (ix2 b (0 : Fin 1)) := by
  refine broadcastInDim_apply _ h x (ix2 b c) (ix2 b (0 : Fin 1)) fun ax => ?_
  match ax with
  | ⟨0, _⟩ =>
    show b.val = if B = 1 then 0 else b.val
    split
    · have := b.isLt; omega
    · rfl
  | ⟨1, _⟩ =>
    show 0 = if (1 : ℕ) = 1 then 0 else c.val
    rw [if_pos rfl]

/-- A `[B, P]` array viewed as `[B, P, 1]` reads, at `(b, p, u)`, the operand at `(b, p)`. -/
theorem broadcastInDim_ab_ab1_apply {B P : ℕ} (x : (⟨2, ![B, P]⟩ : Shape).Idx → α)
    (h : (⟨2, ![B, P]⟩ : Shape).BroadcastsInDim ⟨3, ![B, P, 1]⟩ (![0, 1] : Fin 2 → Fin (⟨3, ![B, P, 1]⟩ : Shape).rank))
    (b : Fin B) (p : Fin P) (u : Fin 1) : broadcastInDim ⟨3, ![B, P, 1]⟩ ![0, 1] h x (ix3 b p u) = x (ix2 b p) := by
  refine broadcastInDim_apply _ h x (ix3 b p u) (ix2 b p) fun ax => ?_
  match ax with
  | ⟨0, _⟩ =>
    show b.val = if B = 1 then 0 else b.val
    split
    · have := b.isLt; omega
    · rfl
  | ⟨1, _⟩ =>
    show p.val = if P = 1 then 0 else p.val
    split
    · have := p.isLt; omega
    · rfl

/-- A `[B, P, 1]` array spread to `[B, P, C]` reads, at `(b, p, c)`, the operand at `(b, p, 0)`. -/
theorem broadcastInDim_ab1_abc_apply {B P C : ℕ} (x : (⟨3, ![B, P, 1]⟩ : Shape).Idx → α)
    (h : (⟨3, ![B, P, 1]⟩ : Shape).BroadcastsInDim ⟨3, ![B, P, C]⟩ (![0, 1, 2] : Fin 3 → Fin (⟨3, ![B, P, C]⟩ : Shape).rank))
    (b : Fin B) (p : Fin P) (c : Fin C) :
    broadcastInDim ⟨3, ![B, P, C]⟩ ![0, 1, 2] h x (ix3 b p c) = x (ix3 b p (0 : Fin 1)) := by
  refine broadcastInDim_apply _ h x (ix3 b p c) (ix3 b p (0 : Fin 1)) fun ax => ?_
  match ax with
  | ⟨0, _⟩ =>
    show b.val = if B = 1 then 0 else b.val
    split
    · have := b.isLt; omega
    · rfl
  | ⟨1, _⟩ =>
    show p.val = if P = 1 then 0 else p.val
    split
    · have := p.isLt; omega
    · rfl
  | ⟨2, _⟩ =>
    show 0 = if (1 : ℕ) = 1 then 0 else c.val
    rw [if_pos rfl]

end Cert.Lib

end
-- ==== Proof.LibThreePasses.lean ====
/-
  Real-valued arrays over the extended reals, and a matrix product computed in three passes from split operands.

  An array of extended reals is REAL-VALUED when no entry is an infinity. Such arrays are closed under sums, products,
  maxima and finite sums, and a real-valued entry minus itself is zero — which an infinite entry's is not.

  A product of two matrices is sometimes computed from operands split as `x = hi + lo`: the three passes
  `hi·hi' + hi·lo' + lo·hi'`, the second-order pass `lo·lo'` left out. When the split is exact on one side — `hi = x`,
  `lo = x - x` — and both operands are real-valued, `lo` is the zero matrix, the two mixed passes vanish, and the three
  passes together are the one product `x·x'`, whatever the contraction's dimension numbers.
-/
import Idealize.ShloMosaic.PureOps.Ideal.Laws
import Idealize.ShloMosaic.Lib.ValueIdx

noncomputable section

open scoped BigOperators

namespace Cert.Lib

open Idealize.ShloMosaic Idealize.ShloMosaic.ValueIdx

/-- No entry of the array is an infinity. -/
def RealValued {ι : Type} (x : ι → EReal) : Prop := ∀ i, ∃ r : ℝ, x i = (r : EReal)

/-- An extended real that is a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A real number minus itself is zero (an infinity minus itself is not). -/
theorem IsReal.sub_self {x : EReal} (hx : IsReal x) : x - x = 0 := by
  obtain ⟨a, rfl⟩ := hx
  rw [← EReal.coe_sub, _root_.sub_self, EReal.coe_zero]

/-- A product of real-valued operands into a zero accumulator is real-valued: each entry is a finite sum of products. -/
theorem realValued_matmul {sl sr so : Shape} {φ₁ φ₂ : FTy} (d : DotDims sl sr so) (prec : Option ContractPrecision)
    (a : FVec Ideal sl φ₁) (b : FVec Ideal sr φ₂) (ha : RealValued a) (hb : RealValued b) :
    RealValued (matmul d prec a b (constant so .f32 0x00000000#32)) := fun j => by
  simp only [matmul]
  rw [Ideal.matmul_constant_zero_apply]
  exact isReal_sum _ _ fun k _ => IsReal.mul (ha _) (hb _)

/-- THE THREE PASSES ARE ONE PRODUCT. For real-valued operands `a`, `b` of any contraction `d`, the product of `a` and
    `b`, plus the product of `a` and `b - b`, plus the product of `a - a` and `b`, each into a zero accumulator and with
    any change of float format on the way in, is the product of `a` and `b`: `b - b` and `a - a` are zero matrices. -/
theorem matmul_three_passes {sl sr so : Shape} (d : DotDims sl sr so) (prec : Option ContractPrecision)
    (a : FVec Ideal sl .f32) (b : FVec Ideal sr .f32) (ha : RealValued a) (hb : RealValued b)
    (hφ : FTy.bf16.bits < FTy.f32.bits) :
    addf (addf (matmul d prec (truncf .bf16 a hφ) (truncf .bf16 b hφ) (constant so .f32 0x00000000#32))
               (matmul d prec (truncf .bf16 a hφ) (truncf .bf16 (subf b b) hφ) (constant so .f32 0x00000000#32)))
         (matmul d prec (truncf .bf16 (subf a a) hφ) (truncf .bf16 b hφ) (constant so .f32 0x00000000#32))
      = matmul d prec a b (constant so .f32 0x00000000#32) := by
  funext j
  rw [addf_apply, addf_apply]
  simp only [matmul]
  rw [Ideal.matmul_constant_zero_apply, Ideal.matmul_constant_zero_apply, Ideal.matmul_constant_zero_apply,
    Ideal.matmul_constant_zero_apply]
  have h2 : (∑ k : d.contr.Idx, (truncf .bf16 a hφ : FVec Ideal sl .bf16) (d.lhsIdx j k)
      * (truncf .bf16 (subf b b) hφ : FVec Ideal sr .bf16) (d.rhsIdx j k)) = 0 :=
    Finset.sum_eq_zero fun k _ => by
      rw [truncf_apply, truncf_apply, subf_apply, IsReal.sub_self (hb _), mul_zero]
  have h3 : (∑ k : d.contr.Idx, (truncf .bf16 (subf a a) hφ : FVec Ideal sl .bf16) (d.lhsIdx j k)
      * (truncf .bf16 b hφ : FVec Ideal sr .bf16) (d.rhsIdx j k)) = 0 :=
    Finset.sum_eq_zero fun k _ => by
      rw [truncf_apply, truncf_apply, subf_apply, IsReal.sub_self (ha _), zero_mul]
  rw [h2, h3, add_zero, add_zero]
  exact Finset.sum_congr rfl fun k _ => by rw [truncf_apply, truncf_apply]

end Cert.Lib

end
-- ==== Proof.LibTotalSum.lean ====
/-
  Totals. A sum over every index of an array survives the operations that only regroup it: a reduction by
  addition along any axes (each source index lands in exactly one fibre), a change of shape (a bijection of
  index sets), and the reading of a one-element array at its only index. Beside these, the one arithmetic
  fact about counting: a wrapping 32-bit sum of zero-or-one words, over fewer than 2^31 indices, read as a
  signed integer, is the number of ones — so it is the sum of the words read one at a time.
-/
import Idealize.ShloMosaic.PureOps.Ideal.Laws
import Idealize.ShloMosaic.PureOps.Reduce
import Idealize.ShloMosaic.Lib.ValueIdx

noncomputable section

namespace TotalSum

open Idealize.ShloMosaic

/-- The real-to-extended-real inclusion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A reduction by addition keeps the total: summing the reduced array over its indices is summing the
    source over its own, because the fibres of the index projection partition the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the vector reduction as a kernel body prints it, read at the exact instance. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- The same with the accumulator spelt as a kernel body prints it: the 32-bit zero word, known to be itself. -/
theorem sum_multiReduction_add_zero {s t : Shape} {axes : List (Fin s.rank)} (src : FVec Ideal s .f32)
    (h : s.Reduces axes t) (hacc : (0x00000000#32 : BitVec 32) = 0x00000000#32) :
    ∑ j : t.Idx, multiReduction .add axes t src 0x00000000#32 h (.inl rfl) hacc j = ∑ i : s.Idx, src i :=
  sum_reduceAdd h src

/-- A change of shape keeps the total: it reads the source through a bijection of the index sets. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-- Summing `g` of two arrays read through the same change of shape is summing `g` of the arrays. -/
theorem sum_shapeCast₂ {M : Type} [AddCommMonoid M] {α : Type} {s t : Shape} (x y : s.Idx → α) (h : s.ShapeCasts t)
    (g : α → α → M) :
    ∑ j : t.Idx, g (shapeCast t x h j) (shapeCast t y h j) = ∑ i : s.Idx, g (x i) (y i) := by
  unfold shapeCast
  exact Equiv.sum_comp (Shape.reshapeEquiv h) fun i => g (x i) (y i)

/-- An array with one index is, at that index, its own total. -/
theorem eq_sum_of_subsingleton {M : Type*} [AddCommMonoid M] {ι : Type*} [Fintype ι] [Subsingleton ι] (w : ι → M) (i : ι) :
    w i = ∑ j : ι, w j :=
  (Fintype.sum_subsingleton w i).symm

/-- The number of indices of a shape is its number of elements. -/
theorem card_idx (s : Shape) : Fintype.card s.Idx = s.numel := by
  rw [Fintype.card_congr s.rowMajor, Fintype.card_fin]

/-! ## Counting ones in 32-bit words -/

/-- The unsigned value of a wrapping sum of words is the sum of their unsigned values, modulo 2^32. -/
theorem toNat_fold_add {ι : Type*} (s : Finset ι) (f : ι → BitVec 32) :
    (s.fold IntOp.addi 0#32 f).toNat = (∑ i ∈ s, (f i).toNat) % 2 ^ 32 := by
  classical
  induction s using Finset.induction_on with
  | empty => simp
  | insert a s ha ih =>
    rw [Finset.fold_insert ha, Finset.sum_insert ha]
    show (f a + s.fold IntOp.addi 0#32 f).toNat = _
    rw [BitVec.toNat_add, ih]
    omega

/-- A one-bit word widened to 32 bits is 0 or 1, whether read unsigned or signed. -/
theorem toNat_setWidth_le_one (b : BitVec 1) : (b.setWidth 32).toNat ≤ 1 := by
  have := b.isLt
  rw [BitVec.toNat_setWidth]
  have : b.toNat < 2 := by simpa using b.isLt
  omega

theorem toInt_setWidth_eq (b : BitVec 1) : ((b.setWidth 32).toInt : ℝ) = ((b.setWidth 32).toNat : ℝ) := by
  have h := toNat_setWidth_le_one b
  rw [BitVec.toInt_eq_toNat_of_lt (by omega)]
  exact Int.cast_natCast _

/-- COUNTING. Over fewer than 2^31 indices, the wrapping 32-bit sum of widened one-bit words, read as a signed
    integer and then as a real, is the sum of the words each read that way: the true count never reaches the
    sign bit, so nothing wraps. -/
theorem toInt_fold_add_bits {ι : Type*} [Fintype ι] (hcard : Fintype.card ι < 2 ^ 31) (b : ι → BitVec 1) :
    (((Finset.univ.fold IntOp.addi 0#32 fun i => (b i).setWidth 32).toInt : ℝ) : EReal)
      = ∑ i : ι, ((((b i).setWidth 32).toInt : ℝ) : EReal) := by
  have hle : ∑ i : ι, ((b i).setWidth 32).toNat ≤ Fintype.card ι := by
    calc ∑ i : ι, ((b i).setWidth 32).toNat ≤ ∑ _i : ι, 1 := Finset.sum_le_sum fun i _ => toNat_setWidth_le_one (b i)
      _ = Fintype.card ι := by simp
  have hN : (Finset.univ.fold IntOp.addi 0#32 fun i => (b i).setWidth 32).toNat = ∑ i : ι, ((b i).setWidth 32).toNat := by
    rw [toNat_fold_add]
    exact Nat.mod_eq_of_lt (by omega)
  rw [BitVec.toInt_eq_toNat_of_lt (by rw [hN]; omega), hN, ← coe_sum]
  congr 1
  rw [Int.cast_natCast, Nat.cast_sum]
  exact Finset.sum_congr rfl fun i _ => (toInt_setWidth_eq (b i)).symm

end TotalSum

end
-- ==== Proof.LibPropagate.lean ====
import Idealize.ShloMosaic.Lib.ValueIdx
import Idealize.ShloMosaic.PureOps.Ideal
import Idealize.ShloMosaic.PureOps.Ideal.Laws
import proofs.«130008_j46316927320539_2_alg».proof.Proof.LibRowGather
import proofs.«130008_j46316927320539_2_alg».proof.Proof.LibRowScatterAdd
import proofs.«130008_j46316927320539_2_alg».proof.Proof.LibHostKeptAxis
import proofs.«130008_j46316927320539_2_alg».proof.Proof.LibThreePasses
import proofs.«130008_j46316927320539_2_alg».proof.Proof.LibTotalSum

/-!
# One hop of a weighted graph propagation, entry by entry, over the extended reals

A hop sends a node-feature matrix `h : [N, C]` to the matrix whose row `n` is the sum, over the edges `e` whose
target word is `n`, of the source row of `e` (the source word clamped into `[0, N − 1]`) scaled by the edge's weight.
-/

noncomputable section
open scoped BigOperators
open Idealize.ShloMosaic Idealize.ShloMosaic.ValueIdx

namespace Cert.Lib

/-- The node whose row edge `e` reads: its source word read signed, as a natural number, clamped to `N − 1`. -/
def srcRow {N E : Nat} (hN : 0 < N) (rowI : IVec ⟨2, ![E, 1]⟩ 32) (e : Fin E) : Fin N :=
  ⟨min (rowI (ix2 e (0 : Fin 1))).toInt.toNat (N - 1), by omega⟩

/-- One hop as the host computes it: gather the source rows, scale row `e` by the weight of edge `e` (kept as a column
    and spread along the features), and add each scaled row into the row its target word names, starting from zero. -/
def hop {N E C : Nat}
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin (⟨2, ![N, C]⟩ : Shape).rank))
    (hb1 : (⟨1, ![E]⟩ : Shape).BroadcastsInDim ⟨2, ![E, 1]⟩ (![0] : Fin 1 → Fin (⟨2, ![E, 1]⟩ : Shape).rank))
    (hb2 : (⟨2, ![E, 1]⟩ : Shape).BroadcastsInDim ⟨2, ![E, C]⟩ (![0, 1] : Fin 2 → Fin (⟨2, ![E, C]⟩ : Shape).rank))
    (h : FVec Ideal ⟨2, ![N, C]⟩ .f32) (rowI colI : IVec ⟨2, ![E, 1]⟩ 32) (nrm : FVec Ideal ⟨1, ![E]⟩ .f32) :
    FVec Ideal ⟨2, ![N, C]⟩ .f32 :=
  Host.scatterAdd (rowScatter2 N E C wfs)
    (broadcastInDim ⟨2, ![N, C]⟩ ![] hz (constant (F := Ideal) ⟨0, ![]⟩ .f32 0x00000000#32)) colI
    (mulf (Host.gather (rowGather2 N E C wfg) h rowI)
      (broadcastInDim ⟨2, ![E, C]⟩ ![0, 1] hb2 (broadcastInDim ⟨2, ![E, 1]⟩ ![0] hb1 nrm)))

/-- The accumulator a hop starts from, the scalar zero spread over the whole matrix, reads `0` at every entry: a
    spread scalar reads the scalar, and the word `0` denotes the number `0`. -/
theorem zeroAcc_apply {N C : Nat}
    (hz : (⟨0, ![]⟩ : Shape).BroadcastsInDim ⟨2, ![N, C]⟩ (![] : Fin 0 → Fin (⟨2, ![N, C]⟩ : Shape).rank))
    (i : (⟨2, ![N, C]⟩ : Shape).Idx) :
    broadcastInDim ⟨2, ![N, C]⟩ ![] hz (constant (F := Ideal) ⟨0, ![]⟩ .f32 0x00000000#32) i = 0 := by
  show constant (F := Ideal) ⟨0, ![]⟩ .f32 0x00000000#32 _ = 0
  rw [constant_apply, Ideal.ofBits_zero_f32]

/-- In the reals the double sum over the edges and over `k` can be taken in either order: for each edge the weight
    moves inside the sum over `k`, an edge that is left out contributes `0` to every `k`, and the two finite sums
    are exchanged. -/
theorem real_hop_exchange {E K : Nat} (c : Fin E → Prop) [DecidablePred c]
    (a : Fin E → Fin K → ℝ) (b : Fin K → ℝ) (ν : Fin E → ℝ) :
    (∑ e : Fin E, if c e then (∑ k : Fin K, a e k * b k) * ν e else 0)
      = ∑ k : Fin K, (∑ e : Fin E, if c e then a e k * ν e else 0) * b k := by
  calc (∑ e : Fin E, if c e then (∑ k : Fin K, a e k * b k) * ν e else 0)
      = ∑ e : Fin E, ∑ k : Fin K, (if c e then a e k * ν e else 0) * b k := by
        refine Finset.sum_congr rfl fun e _ => ?_
        by_cases hc : c e
        · rw [if_pos hc, Finset.sum_mul]
          refine Finset.sum_congr rfl fun k _ => ?_
          rw [if_pos hc]
          ring
        · rw [if_neg hc]
          refine (Finset.sum_eq_zero fun k _ => ?_).symm
          rw [if_neg hc, zero_mul]
    _ = ∑ k : Fin K, ∑ e : Fin E, (if c e then a e k * ν e else 0) * b k := Finset.sum_comm
    _ = ∑ k : Fin K, (∑ e : Fin E, if c e then a e k * ν e else 0) * b k :=
        Finset.sum_congr rfl fun k _ => (Finset.sum_mul _ _ _).symm

section
variable {N E C : Nat} (hN : 0 < N)
  (wfg : GatherDims.WF ⟨2, ![N, C]⟩ ⟨2, ![E, 1]⟩ ⟨2, ![E, C]⟩ [1] [0] [] [0] [] 1 ![1, C])
  (wfs : ScatterDims.WF ⟨2, ![N, C]⟩ ⟨2, ![E, 1]⟩ ⟨2, ![E, C]⟩ [1] [0] [0] 1)
  (hz : (⟨0, ![]⟩ : Shape).BroadcastsInDim ⟨2, ![N, C]⟩ (![] : Fin 0 → Fin (⟨2, ![N, C]⟩ : Shape).rank))
  (hb1 : (⟨1, ![E]⟩ : Shape).BroadcastsInDim ⟨2, ![E, 1]⟩ (![0] : Fin 1 → Fin (⟨2, ![E, 1]⟩ : Shape).rank))
  (hb2 : (⟨2, ![E, 1]⟩ : Shape).BroadcastsInDim ⟨2, ![E, C]⟩ (![0, 1] : Fin 2 → Fin (⟨2, ![E, C]⟩ : Shape).rank))
  (h : FVec Ideal ⟨2, ![N, C]⟩ .f32) (rowI colI : IVec ⟨2, ![E, 1]⟩ 32) (nrm : FVec Ideal ⟨1, ![E]⟩ .f32)

/-- ENTRY `(n, j)` OF A HOP: the sum over the edges whose target word, read signed, is `n` of the source row's entry
    `j` times the edge's weight. -/
theorem hop_apply (n : Fin N) (j : Fin C) :
    hop wfg wfs hz hb1 hb2 h rowI colI nrm (ix2 n j)
      = ∑ e : Fin E, if (colI (ix2 e (0 : Fin 1))).toInt = (n.val : ℤ)
          then h (ix2 (srcRow hN rowI e) j) * nrm (ix1 e) else 0 := by
  unfold hop
  rw [scatterAdd_rows2_apply, zeroAcc_apply, zero_add]
  refine Finset.sum_congr rfl fun e _ => ?_
  rw [mulf_apply, gather_rows2_apply hN, broadcastInDim_a1_ab_apply, broadcastInDim_a_a1_apply]
  rfl

/-- A hop of a real-valued matrix along real weights is real-valued. -/
theorem realValued_hop (hh : RealValued h) (hn : RealValued nrm) :
    RealValued (hop wfg wfs hz hb1 hb2 h rowI colI nrm) := by
  intro i
  -- an index of `[N, C]` has a first coordinate below `N`, so `N` is positive
  have hN : 0 < N := Nat.lt_of_le_of_lt (Nat.zero_le _) (idx2_lt0 i)
  have key : ∀ (p : Fin N) (q : Fin C), IsReal (hop wfg wfs hz hb1 hb2 h rowI colI nrm (ix2 p q)) := by
    intro p q
    rw [hop_apply hN]
    refine isReal_sum _ _ fun e _ => ?_
    by_cases hc : (colI (ix2 e (0 : Fin 1))).toInt = (p.val : ℤ)
    · rw [if_pos hc]
      exact IsReal.mul (hh _) (hn _)
    · rw [if_neg hc]
      exact isReal_zero
  rw [eq_ix2 i]
  exact key (i 0) (i 1)

end

/-- A HOP COMMUTES WITH A PRODUCT ON THE FEATURE AXIS. If `y = h · w` entry by entry, with `h : [N, K]`, `w : [K, M]`
    and the edge weights all real-valued, then the hop of `y` is the hop of `h` times `w`: each side is the double
    sum over edges and over `k` of real numbers, taken in the two orders. -/
theorem hop_matmul {N E K M : Nat} (hN : 0 < N)
    (wfgK : GatherDims.WF ⟨2, ![N, K]⟩ ⟨2, ![E, 1]⟩ ⟨2, ![E, K]⟩ [1] [0] [] [0] [] 1 ![1, K])
    (wfsK : ScatterDims.WF ⟨2, ![N, K]⟩ ⟨2, ![E, 1]⟩ ⟨2, ![E, K]⟩ [1] [0] [0] 1)
    (hzK : (⟨0, ![]⟩ : Shape).BroadcastsInDim ⟨2, ![N, K]⟩ (![] : Fin 0 → Fin (⟨2, ![N, K]⟩ : Shape).rank))
    (hb2K : (⟨2, ![E, 1]⟩ : Shape).BroadcastsInDim ⟨2, ![E, K]⟩ (![0, 1] : Fin 2 → Fin (⟨2, ![E, K]⟩ : Shape).rank))
    (wfgM : GatherDims.WF ⟨2, ![N, M]⟩ ⟨2, ![E, 1]⟩ ⟨2, ![E, M]⟩ [1] [0] [] [0] [] 1 ![1, M])
    (wfsM : ScatterDims.WF ⟨2, ![N, M]⟩ ⟨2, ![E, 1]⟩ ⟨2, ![E, M]⟩ [1] [0] [0] 1)
    (hzM : (⟨0, ![]⟩ : Shape).BroadcastsInDim ⟨2, ![N, M]⟩ (![] : Fin 0 → Fin (⟨2, ![N, M]⟩ : Shape).rank))
    (hb2M : (⟨2, ![E, 1]⟩ : Shape).BroadcastsInDim ⟨2, ![E, M]⟩ (![0, 1] : Fin 2 → Fin (⟨2, ![E, M]⟩ : Shape).rank))
    (hb1 : (⟨1, ![E]⟩ : Shape).BroadcastsInDim ⟨2, ![E, 1]⟩ (![0] : Fin 1 → Fin (⟨2, ![E, 1]⟩ : Shape).rank))
    (h : FVec Ideal ⟨2, ![N, K]⟩ .f32) (w : FVec Ideal ⟨2, ![K, M]⟩ .f32) (y : FVec Ideal ⟨2, ![N, M]⟩ .f32)
    (rowI colI : IVec ⟨2, ![E, 1]⟩ 32) (nrm : FVec Ideal ⟨1, ![E]⟩ .f32)
    (hh : RealValued h) (hw : RealValued w) (hn : RealValued nrm)
    (hy : ∀ (n : Fin N) (q : Fin M), y (ix2 n q) = ∑ k : Fin K, h (ix2 n k) * w (ix2 k q))
    (n : Fin N) (q : Fin M) :
    hop wfgM wfsM hzM hb1 hb2M y rowI colI nrm (ix2 n q)
      = ∑ k : Fin K, hop wfgK wfsK hzK hb1 hb2K h rowI colI nrm (ix2 n k) * w (ix2 k q) := by
  unfold RealValued at hh hw hn
  choose h' hh' using hh
  choose w' hw' using hw
  choose ν' hν' using hn
  -- the left side is the inclusion of a real double sum, the edges outside
  have hL : hop wfgM wfsM hzM hb1 hb2M y rowI colI nrm (ix2 n q)
      = ((∑ e : Fin E, if (colI (ix2 e (0 : Fin 1))).toInt = (n.val : ℤ)
          then (∑ k : Fin K, h' (ix2 (srcRow hN rowI e) k) * w' (ix2 k q)) * ν' (ix1 e) else 0 : ℝ) : EReal) := by
    refine (hop_apply hN wfgM wfsM hzM hb1 hb2M y rowI colI nrm n q).trans ?_
    refine Eq.trans ?_ (TotalSum.coe_sum _ _).symm
    refine Finset.sum_congr rfl fun e _ => ?_
    by_cases hc : (colI (ix2 e (0 : Fin 1))).toInt = (n.val : ℤ)
    · rw [if_pos hc, if_pos hc, hy, hν', EReal.coe_mul, TotalSum.coe_sum]
      congr 1
      refine Finset.sum_congr rfl fun k _ => ?_
      rw [hh', hw', EReal.coe_mul]
    · rw [if_neg hc, if_neg hc, EReal.coe_zero]
  -- each term of the right side is the inclusion of a real product, the edges inside
  have hR : ∀ k : Fin K, hop wfgK wfsK hzK hb1 hb2K h rowI colI nrm (ix2 n k) * w (ix2 k q)
      = (((∑ e : Fin E, if (colI (ix2 e (0 : Fin 1))).toInt = (n.val : ℤ)
          then h' (ix2 (srcRow hN rowI e) k) * ν' (ix1 e) else 0) * w' (ix2 k q) : ℝ) : EReal) := by
    intro k
    rw [EReal.coe_mul, ← hw', TotalSum.coe_sum]
    congr 1
    refine (hop_apply hN wfgK wfsK hzK hb1 hb2K h rowI colI nrm n k).trans ?_
    refine Finset.sum_congr rfl fun e _ => ?_
    by_cases hc : (colI (ix2 e (0 : Fin 1))).toInt = (n.val : ℤ)
    · rw [if_pos hc, if_pos hc, hh', hν', EReal.coe_mul]
    · rw [if_neg hc, if_neg hc, EReal.coe_zero]
  rw [hL, Finset.sum_congr rfl fun k _ => hR k, ← TotalSum.coe_sum]
  exact congrArg _ (real_hop_exchange _ _ _ _)

end Cert.Lib

end
-- ==== Proof.KernelRun.lean ====
import proofs.«130008_j46316927320539_2_alg».proof.Proof.Gen.KernelIdeal.Frame
import proofs.«130008_j46316927320539_2_alg».proof.Proof.KernelPre
import proofs.«130008_j46316927320539_2_alg».proof.Proof.KernelValue
import proofs.«130008_j46316927320539_2_alg».proof.Proof.LibPropagate
import Idealize.ShloMosaic.PureOps.Ideal

/-!
# The kernel's program, run: its result as a function of the arguments

After the region the entry function propagates the projected features twice along the edges and adds the bias. Read
over the valuation the region leaves, the result is two hops of the region's output array, plus the bias row spread
over the nodes; the region's output array is the product of the node features with the transposed weights, and the edge
data are the named functions of the edge list and the edge weights.
-/

noncomputable section
namespace Cert.KernelIdeal.KRun

open Idealize.ShloMosaic Idealize.ShloMosaic.TcCoe Idealize.SL.Sem Idealize.ShloMosaic.StableHlo Cert.KernelIdeal Cert.KernelIdeal.Gen

/-- Two hops at the narrow width of a matrix `p` along edges with source words `s`, target words `t` and weights `n`,
    plus the bias `a4` spread over the nodes. -/
def tailTerm (p : FVec Ideal S50000x128 .f32) (s t : IVec S850000 32) (n : FVec Ideal S850000 .f32) (a4 : FVec Ideal S128 .f32) :
    FVec Ideal S50000x128 .f32 :=
  addf
    (Cert.Lib.hop gather_S50000x128_S850000x1_S850000x128_1_0_n_n_0_1_1128_wf scatter_S50000x128_S850000x1_S850000x128_1_0_0_1_wf
      bcast_S_S50000x128 bcast_S850000_S850000x1_0 bcast_S850000x1_S850000x128_0_1
      (Cert.Lib.hop gather_S50000x128_S850000x1_S850000x128_1_0_n_n_0_1_1128_wf scatter_S50000x128_S850000x1_S850000x128_1_0_0_1_wf
        bcast_S_S50000x128 bcast_S850000_S850000x1_0 bcast_S850000x1_S850000x128_0_1
        p (Spec.colOf (Spec.wrapOf s)) (Spec.colOf t) n)
      (Spec.colOf (Spec.wrapOf s)) (Spec.colOf t) n)
    (broadcastInDim S50000x128 ![0, 1] bcast_S1x128_S50000x128_0_1 (broadcastInDim S1x128 ![1] bcast_S128_S1x128_1 a4))

/-- The operations after the region, over any valuation: the result buffer ends at the two hops of the region's output
    buffer plus the bias. -/
theorem tail_v66 (W : Valuation τ sig (Elt Ideal)) :
    after hostOps1 W (Proc.devRef .tc main_v66)
      = tailTerm (W (Proc.devRef .tc main_v37)) (W (Proc.devRef .tc main_v7)) (W (Proc.devRef .tc main_v10))
          (W (Proc.devRef .tc main_v35)) (W (Proc.devRef .tc main_arg4)) := by
  simp only [hostOps1]
  after_results_simp
  rfl

variable (m : (ℓ : Loc nD τ sig) → Buf (Elt Ideal) ℓ)

/-- The kernel's result on core `c` as a function of the launch contents of the arguments. -/
def kval (c : Dev nD) : FVec Ideal S50000x128 .f32 :=
  tailTerm
    (ProjValue.proj (m ((c : Thread nD τ).loc main_arg0))
      (transpose S256x128 [1, 0] (m ((c : Thread nD τ).loc main_arg3)) transposes_S128x256_S256x128_1_0))
    (Spec.srcOf (m ((c : Thread nD τ).loc main_arg1))) (Spec.tgtOf (m ((c : Thread nD τ).loc main_arg1)))
    (Spec.nrmOf (F := Ideal) (m ((c : Thread nD τ).loc main_arg1)) (m ((c : Thread nD τ).loc main_arg2)))
    (m ((c : Thread nD τ).loc main_arg4))

/-- What the later operations leave in the result buffer, from the valuation the region leaves. -/
theorem tail_eq (c : Dev nD) :
    Pipeline.afterTail₀ cfgs (dats m) 0 (V0 m) [hostOps1] c main_v66 = kval m c := by
  unfold Pipeline.afterTail₀
  refine (tail_v66 _).trans ?_
  have e37 : Pipeline.withArrays (cfgs 0).spec c (V0 m c) (fun w => (dats m 0 c).arrAt w (cfgs 0).N) (Proc.devRef .tc main_v37)
      = ProjValue.proj (m ((c : Thread nD τ).loc main_arg0))
          (transpose S256x128 [1, 0] (m ((c : Thread nD τ).loc main_arg3)) transposes_S128x256_S256x128_1_0) :=
    (Pipeline.withArrays_arr spec0 launch0.win.arr_inj c _ _ 2).trans
      ((ProjValue.final m c).trans (by rw [V_main_arg0, KPre.V_wt]))
  have e7 : Pipeline.withArrays (cfgs 0).spec c (V0 m c) (fun w => (dats m 0 c).arrAt w (cfgs 0).N) (Proc.devRef .tc main_v7)
      = Spec.srcOf (m ((c : Thread nD τ).loc main_arg1)) :=
    (Pipeline.withArrays_of_ne _ c (V0 m c) _ main_v7 (by exact (by decide : ∀ w, Pipeline.arrRef spec0 w ≠ main_v7))).trans (show V0 m c (Proc.devRef .tc main_v7) = _ from KPre.V_src m c)
  have e10 : Pipeline.withArrays (cfgs 0).spec c (V0 m c) (fun w => (dats m 0 c).arrAt w (cfgs 0).N) (Proc.devRef .tc main_v10)
      = Spec.tgtOf (m ((c : Thread nD τ).loc main_arg1)) :=
    (Pipeline.withArrays_of_ne _ c (V0 m c) _ main_v10 (by exact (by decide : ∀ w, Pipeline.arrRef spec0 w ≠ main_v10))).trans (show V0 m c (Proc.devRef .tc main_v10) = _ from KPre.V_tgt m c)
  have e35 : Pipeline.withArrays (cfgs 0).spec c (V0 m c) (fun w => (dats m 0 c).arrAt w (cfgs 0).N) (Proc.devRef .tc main_v35)
      = Spec.nrmOf (F := Ideal) (m ((c : Thread nD τ).loc main_arg1)) (m ((c : Thread nD τ).loc main_arg2)) :=
    (Pipeline.withArrays_of_ne _ c (V0 m c) _ main_v35 (by exact (by decide : ∀ w, Pipeline.arrRef spec0 w ≠ main_v35))).trans (show V0 m c (Proc.devRef .tc main_v35) = _ from KPre.V_nrm m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [e37, e7, e10, e35, e4]
  rfl

/-- THE KERNEL'S RUN: every weakly fair execution terminates with the result buffer at `kval` and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v66) = kval m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v66 (Pipeline.mem_restRefs_of main_v66 (by decide) (by decide))).trans (tail_eq m c),
       ((h c).1 0).trans (((dats m 0 c).arrAt_in 0 rfl _).trans ((A_eq m c 0).trans (V_main_arg0 m c))),
       (((h c).2 main_arg1 (Pipeline.mem_restRefs_of main_arg1 (by decide) (by decide))).trans (W_main_arg1 m (dats m) c)),
       (((h c).2 main_arg2 (Pipeline.mem_restRefs_of main_arg2 (by decide) (by decide))).trans (W_main_arg2 m (dats m) c)),
       (((h c).2 main_arg3 (Pipeline.mem_restRefs_of main_arg3 (by decide) (by decide))).trans (W_main_arg3 m (dats m) c)),
       (((h c).2 main_arg4 (Pipeline.mem_restRefs_of main_arg4 (by decide) (by decide))).trans (W_main_arg4 m (dats m) c))⟩)
    (run_main m ρ)

end Cert.KernelIdeal.KRun
end
-- ==== Proof.RefRun.lean ====
import proofs.«130008_j46316927320539_2_alg».proof.Proof.Gen.ReferenceIdeal
import Idealize.ShloMosaic.Lib.StableHlo.Run

/-!
# The reference program as a straight line of host operations

The reference has no kernel: its entry function is a sequence of host operations, the three functions it calls (the
exponential linear unit and two selects) written out at their call sites over the calls' own buffers. The first
62 operations compute the edge data (source and target words, weights, degrees, normalisation); the remaining
37 propagate the node features twice, multiply by the transposed weight matrix and add the bias. Every weakly fair
execution ends with each buffer at the fold of these operations over the launch contents.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The words of the given edges followed by the words of the self loops, as one vector. -/
def catI (a : IVec S800000 32) (b : IVec S50000 32) : IVec S850000 32 :=
  concatenate S850000 0 [⟨S800000, a⟩, ⟨S50000, b⟩] concatenates_S800000_S50000_S850000_d0

/-- The weights of the given edges followed by the weights of the self loops, as one vector. -/
def catF (a : FVec F S800000 .f32) (b : FVec F S50000 .f32) : FVec F S850000 .f32 :=
  concatenate S850000 0 [⟨S800000, a⟩, ⟨S50000, b⟩] concatenates_S800000_S50000_S850000_d0

/-- The operations that compute the edge data, in order (the three concatenations named). -/
abbrev opsA : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S800000, .f32⟩) (broadcastInDim S800000 ![] bcast_S_S800000),
    StableHlo.TRef.binary (.of main_arg2 : StableHlo.TRef sig ⟨S800000, .f32⟩) (.of main_call0_v0 : StableHlo.TRef sig ⟨S800000, .f32⟩) (.of main_call0_v1 : StableHlo.TRef sig ⟨S800000, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S800000, .f32⟩) (broadcastInDim S800000 ![] bcast_S_S800000),
    StableHlo.TRef.binary (.of main_arg2 : StableHlo.TRef sig ⟨S800000, .f32⟩) (.of main_call0_v2 : StableHlo.TRef sig ⟨S800000, .f32⟩) (.of main_call0_v3 : StableHlo.TRef sig ⟨S800000, .i1⟩) (cmpf .ogt),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S800000, .f32⟩) (broadcastInDim S800000 ![] bcast_S_S800000),
    StableHlo.TRef.ternary (.of main_call0_v3 : StableHlo.TRef sig ⟨S800000, .i1⟩) (.of main_call0_call0_v1 : StableHlo.TRef sig ⟨S800000, .f32⟩) (.of main_arg2 : StableHlo.TRef sig ⟨S800000, .f32⟩) (.of main_call0_v4 : StableHlo.TRef sig ⟨S800000, .f32⟩) select,
    StableHlo.TRef.unary main_call0_call0.v2 (.of main_call0_v5 : StableHlo.TRef sig ⟨S800000, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S800000, .f32⟩) (broadcastInDim S800000 ![] bcast_S_S800000),
    StableHlo.TRef.binary (.of main_call0_v6 : StableHlo.TRef sig ⟨S800000, .f32⟩) (.of main_call0_v5 : StableHlo.TRef sig ⟨S800000, .f32⟩) (.of main_call0_v7 : StableHlo.TRef sig ⟨S800000, .f32⟩) mulf,
    StableHlo.TRef.ternary (.of main_call0_v1 : StableHlo.TRef sig ⟨S800000, .i1⟩) (.of main_arg2 : StableHlo.TRef sig ⟨S800000, .f32⟩) (.of main_call0_v7 : StableHlo.TRef sig ⟨S800000, .f32⟩) (.of main_v0 : StableHlo.TRef sig ⟨S800000, .f32⟩) select,
    StableHlo.nullary main_cst (constant S_ .f32 0x00000000#32),
    StableHlo.unary main_cst main_v1 (broadcastInDim S800000 ![] bcast_S_S800000 : (⟨S_, .f32⟩ : BufTy).Contents (Elt F) → (⟨S800000, .f32⟩ : BufTy).Contents (Elt F)),
    StableHlo.binary main_v0 main_v1 main_v2 (cmpf .ole : (⟨S800000, .f32⟩ : BufTy).Contents (Elt F) → (⟨S800000, .f32⟩ : BufTy).Contents (Elt F) → (⟨S800000, .i1⟩ : BufTy).Contents (Elt F)),
    StableHlo.nullary main_cst_0 (constant S_ .f32 0x33D6BF95#32),
    StableHlo.TRef.unary (.of main_cst_0 : StableHlo.TRef sig ⟨S_, .f32⟩) (.of main_call1_v0 : StableHlo.TRef sig ⟨S800000, .f32⟩) (broadcastInDim S800000 ![] bcast_S_S800000),
    StableHlo.TRef.ternary (.of main_v2 : StableHlo.TRef sig ⟨S800000, .i1⟩) (.of main_call1_v0 : StableHlo.TRef sig ⟨S800000, .f32⟩) (.of main_arg2 : StableHlo.TRef sig ⟨S800000, .f32⟩) (.of main_v3 : StableHlo.TRef sig ⟨S800000, .f32⟩) select,
    StableHlo.nullary main_v4 (iotaInDim S50000 32 0),
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v4 main_v7 (catI : (⟨S800000, .i32⟩ : BufTy).Contents (Elt F) → (⟨S50000, .i32⟩ : BufTy).Contents (Elt F) → (⟨S850000, .i32⟩ : BufTy).Contents (Elt F)),
    StableHlo.unary main_arg1 main_v8 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v8 main_v9 rfl shapeCasts_S1x800000_S800000,
    StableHlo.binary main_v9 main_v4 main_v10 (catI : (⟨S800000, .i32⟩ : BufTy).Contents (Elt F) → (⟨S50000, .i32⟩ : BufTy).Contents (Elt F) → (⟨S850000, .i32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v3 main_v11 main_v12 (catF : (⟨S800000, .f32⟩ : BufTy).Contents (Elt F) → (⟨S50000, .f32⟩ : BufTy).Contents (Elt F) → (⟨S850000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v10 main_v14 (broadcastInDim S850000x1 ![0] bcast_S850000_S850000x1_0 : (⟨S850000, .i32⟩ : BufTy).Contents (Elt F) → (⟨S850000x1, .i32⟩ : BufTy).Contents (Elt F)),
    StableHlo.ternary main_v13 main_v14 main_v12 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_3 (constant S_ .f32 0x00000000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.unary main_v15 main_v18 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) (.of main_call2_v0 : StableHlo.TRef sig ⟨S50000, .f32⟩) (broadcastInDim S50000 ![] bcast_S_S50000),
    StableHlo.TRef.ternary (.of main_v17 : StableHlo.TRef sig ⟨S50000, .i1⟩) (.of main_v18 : StableHlo.TRef sig ⟨S50000, .f32⟩) (.of main_call2_v0 : StableHlo.TRef sig ⟨S50000, .f32⟩) (.of main_v19 : StableHlo.TRef sig ⟨S50000, .f32⟩) select,
    StableHlo.nullary main_c (constantI S_ 32 0#32),
    StableHlo.unary main_c main_v20 (broadcastInDim S850000 ![] bcast_S_S850000 : (⟨S_, .i32⟩ : BufTy).Contents (Elt F) → (⟨S850000, .i32⟩ : BufTy).Contents (Elt F)),
    StableHlo.binary main_v7 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v22 (broadcastInDim S850000 ![] bcast_S_S850000 : (⟨S_, .i32⟩ : BufTy).Contents (Elt F) → (⟨S850000, .i32⟩ : BufTy).Contents (Elt F)),
    StableHlo.binary main_v7 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v7 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v12 main_v27 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v28 (broadcastInDim S850000 ![] bcast_S_S850000 : (⟨S_, .i32⟩ : BufTy).Contents (Elt F) → (⟨S850000, .i32⟩ : BufTy).Contents (Elt F)),
    StableHlo.binary main_v10 main_v28 main_v29 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v30 (broadcastInDim S850000 ![] bcast_S_S850000 : (⟨S_, .i32⟩ : BufTy).Contents (Elt F) → (⟨S850000, .i32⟩ : BufTy).Contents (Elt F)),
    StableHlo.binary main_v10 main_v30 main_v31 (addi : (⟨S850000, .i32⟩ : BufTy).Contents (Elt F) → (⟨S850000, .i32⟩ : BufTy).Contents (Elt F) → (⟨S850000, .i32⟩ : BufTy).Contents (Elt F)),
    StableHlo.ternary main_v29 main_v31 main_v10 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v32 main_v33 (broadcastInDim S850000x1 ![0] bcast_S850000_S850000x1_0 : (⟨S850000, .i32⟩ : BufTy).Contents (Elt F) → (⟨S850000x1, .i32⟩ : BufTy).Contents (Elt F)),
    StableHlo.binary main_v19 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v27 main_v34 main_v35 (mulf : (⟨S850000, .f32⟩ : BufTy).Contents (Elt F) → (⟨S850000, .f32⟩ : BufTy).Contents (Elt F) → (⟨S850000, .f32⟩ : BufTy).Contents (Elt F)) ]

/-- Stretch 0 of the edge-data operations: the exponential linear unit of the edge weights. -/
abbrev R0 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S800000, .f32⟩) (broadcastInDim S800000 ![] bcast_S_S800000),
    StableHlo.TRef.binary (.of main_arg2 : StableHlo.TRef sig ⟨S800000, .f32⟩) (.of main_call0_v0 : StableHlo.TRef sig ⟨S800000, .f32⟩) (.of main_call0_v1 : StableHlo.TRef sig ⟨S800000, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S800000, .f32⟩) (broadcastInDim S800000 ![] bcast_S_S800000),
    StableHlo.TRef.binary (.of main_arg2 : StableHlo.TRef sig ⟨S800000, .f32⟩) (.of main_call0_v2 : StableHlo.TRef sig ⟨S800000, .f32⟩) (.of main_call0_v3 : StableHlo.TRef sig ⟨S800000, .i1⟩) (cmpf .ogt),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S800000, .f32⟩) (broadcastInDim S800000 ![] bcast_S_S800000),
    StableHlo.TRef.ternary (.of main_call0_v3 : StableHlo.TRef sig ⟨S800000, .i1⟩) (.of main_call0_call0_v1 : StableHlo.TRef sig ⟨S800000, .f32⟩) (.of main_arg2 : StableHlo.TRef sig ⟨S800000, .f32⟩) (.of main_call0_v4 : StableHlo.TRef sig ⟨S800000, .f32⟩) select,
    StableHlo.TRef.unary main_call0_call0.v2 (.of main_call0_v5 : StableHlo.TRef sig ⟨S800000, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S800000, .f32⟩) (broadcastInDim S800000 ![] bcast_S_S800000),
    StableHlo.TRef.binary (.of main_call0_v6 : StableHlo.TRef sig ⟨S800000, .f32⟩) (.of main_call0_v5 : StableHlo.TRef sig ⟨S800000, .f32⟩) (.of main_call0_v7 : StableHlo.TRef sig ⟨S800000, .f32⟩) mulf,
    StableHlo.TRef.ternary (.of main_call0_v1 : StableHlo.TRef sig ⟨S800000, .i1⟩) (.of main_arg2 : StableHlo.TRef sig ⟨S800000, .f32⟩) (.of main_call0_v7 : StableHlo.TRef sig ⟨S800000, .f32⟩) (.of main_v0 : StableHlo.TRef sig ⟨S800000, .f32⟩) select ]

/-- Stretch 1 of the edge-data operations: the clamp's condition and literal. -/
abbrev R1 : List (HloOp τ sig (Elt F)) :=
  [ StableHlo.nullary main_cst (constant S_ .f32 0x00000000#32),
    StableHlo.unary main_cst main_v1 (broadcastInDim S800000 ![] bcast_S_S800000 : (⟨S_, .f32⟩ : BufTy).Contents (Elt F) → (⟨S800000, .f32⟩ : BufTy).Contents (Elt F)),
    StableHlo.binary main_v0 main_v1 main_v2 (cmpf .ole : (⟨S800000, .f32⟩ : BufTy).Contents (Elt F) → (⟨S800000, .f32⟩ : BufTy).Contents (Elt F) → (⟨S800000, .i1⟩ : BufTy).Contents (Elt F)),
    StableHlo.nullary main_cst_0 (constant S_ .f32 0x33D6BF95#32) ]

/-- Stretch 2 of the edge-data operations: the clamped weights. -/
abbrev R2 : List (HloOp τ sig (Elt F)) :=
  [ StableHlo.TRef.unary (.of main_cst_0 : StableHlo.TRef sig ⟨S_, .f32⟩) (.of main_call1_v0 : StableHlo.TRef sig ⟨S800000, .f32⟩) (broadcastInDim S800000 ![] bcast_S_S800000),
    StableHlo.TRef.ternary (.of main_v2 : StableHlo.TRef sig ⟨S800000, .i1⟩) (.of main_call1_v0 : StableHlo.TRef sig ⟨S800000, .f32⟩) (.of main_arg2 : StableHlo.TRef sig ⟨S800000, .f32⟩) (.of main_v3 : StableHlo.TRef sig ⟨S800000, .f32⟩) select ]

/-- Stretch 3 of the edge-data operations: the edge words, all weights and the degrees. -/
abbrev R3 : List (HloOp τ sig (Elt F)) :=
  [ StableHlo.nullary main_v4 (iotaInDim S50000 32 0),
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v4 main_v7 (catI : (⟨S800000, .i32⟩ : BufTy).Contents (Elt F) → (⟨S50000, .i32⟩ : BufTy).Contents (Elt F) → (⟨S850000, .i32⟩ : BufTy).Contents (Elt F)),
    StableHlo.unary main_arg1 main_v8 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v8 main_v9 rfl shapeCasts_S1x800000_S800000,
    StableHlo.binary main_v9 main_v4 main_v10 (catI : (⟨S800000, .i32⟩ : BufTy).Contents (Elt F) → (⟨S50000, .i32⟩ : BufTy).Contents (Elt F) → (⟨S850000, .i32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v3 main_v11 main_v12 (catF : (⟨S800000, .f32⟩ : BufTy).Contents (Elt F) → (⟨S50000, .f32⟩ : BufTy).Contents (Elt F) → (⟨S850000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v10 main_v14 (broadcastInDim S850000x1 ![0] bcast_S850000_S850000x1_0 : (⟨S850000, .i32⟩ : BufTy).Contents (Elt F) → (⟨S850000x1, .i32⟩ : BufTy).Contents (Elt F)),
    StableHlo.ternary main_v13 main_v14 main_v12 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_3 (constant S_ .f32 0x00000000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.unary main_v15 main_v18 (Host.rsqrt : (⟨S50000, .f32⟩ : BufTy).Contents (Elt F) → (⟨S50000, .f32⟩ : BufTy).Contents (Elt F)),
    StableHlo.nullary main_cst_4 (constant S_ .f32 0x00000000#32) ]

/-- Stretch 4 of the edge-data operations: the inverse square roots where the degree is positive. -/
abbrev R4 : List (HloOp τ sig (Elt F)) :=
  [ StableHlo.TRef.unary (.of main_cst_4 : StableHlo.TRef sig ⟨S_, .f32⟩) (.of main_call2_v0 : StableHlo.TRef sig ⟨S50000, .f32⟩) (broadcastInDim S50000 ![] bcast_S_S50000),
    StableHlo.TRef.ternary (.of main_v17 : StableHlo.TRef sig ⟨S50000, .i1⟩) (.of main_v18 : StableHlo.TRef sig ⟨S50000, .f32⟩) (.of main_call2_v0 : StableHlo.TRef sig ⟨S50000, .f32⟩) (.of main_v19 : StableHlo.TRef sig ⟨S50000, .f32⟩) select ]

/-- Stretch 5 of the edge-data operations: the normalised weights. -/
abbrev R5 : List (HloOp τ sig (Elt F)) :=
  [ StableHlo.nullary main_c (constantI S_ 32 0#32),
    StableHlo.unary main_c main_v20 (broadcastInDim S850000 ![] bcast_S_S850000 : (⟨S_, .i32⟩ : BufTy).Contents (Elt F) → (⟨S850000, .i32⟩ : BufTy).Contents (Elt F)),
    StableHlo.binary main_v7 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v22 (broadcastInDim S850000 ![] bcast_S_S850000 : (⟨S_, .i32⟩ : BufTy).Contents (Elt F) → (⟨S850000, .i32⟩ : BufTy).Contents (Elt F)),
    StableHlo.binary main_v7 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v7 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v12 main_v27 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v28 (broadcastInDim S850000 ![] bcast_S_S850000 : (⟨S_, .i32⟩ : BufTy).Contents (Elt F) → (⟨S850000, .i32⟩ : BufTy).Contents (Elt F)),
    StableHlo.binary main_v10 main_v28 main_v29 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v30 (broadcastInDim S850000 ![] bcast_S_S850000 : (⟨S_, .i32⟩ : BufTy).Contents (Elt F) → (⟨S850000, .i32⟩ : BufTy).Contents (Elt F)),
    StableHlo.binary main_v10 main_v30 main_v31 (addi : (⟨S850000, .i32⟩ : BufTy).Contents (Elt F) → (⟨S850000, .i32⟩ : BufTy).Contents (Elt F) → (⟨S850000, .i32⟩ : BufTy).Contents (Elt F)),
    StableHlo.ternary main_v29 main_v31 main_v10 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v32 main_v33 (broadcastInDim S850000x1 ![0] bcast_S850000_S850000x1_0 : (⟨S850000, .i32⟩ : BufTy).Contents (Elt F) → (⟨S850000x1, .i32⟩ : BufTy).Contents (Elt F)),
    StableHlo.binary main_v19 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v27 main_v34 main_v35 (mulf : (⟨S850000, .f32⟩ : BufTy).Contents (Elt F) → (⟨S850000, .f32⟩ : BufTy).Contents (Elt F) → (⟨S850000, .f32⟩ : BufTy).Contents (Elt F)) ]

/-- The edge-data operations are the six stretches in order. -/
theorem opsA_eq : (opsA : List (HloOp τ sig (Elt F))) = R0 ++ (R1 ++ (R2 ++ (R3 ++ (R4 ++ R5)))) := rfl

/-- The two propagation hops, the product with the transposed weights and the bias, in order. -/
abbrev opsB : List (HloOp τ sig (Elt F)) :=
  [ StableHlo.nullary main_c_8 (constantI S_ 32 0#32),
    StableHlo.unary main_c_8 main_v36 (broadcastInDim S850000 ![] bcast_S_S850000 : (⟨S_, .i32⟩ : BufTy).Contents (Elt F) → (⟨S850000, .i32⟩ : BufTy).Contents (Elt F)),
    StableHlo.binary main_v7 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v38 (broadcastInDim S850000 ![] bcast_S_S850000 : (⟨S_, .i32⟩ : BufTy).Contents (Elt F) → (⟨S850000, .i32⟩ : BufTy).Contents (Elt F)),
    StableHlo.binary main_v7 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v7 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_arg0 main_v41 main_v42 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v35 main_v43 (broadcastInDim S850000x1 ![0] bcast_S850000_S850000x1_0 : (⟨S850000, .f32⟩ : BufTy).Contents (Elt F) → (⟨S850000x1, .f32⟩ : BufTy).Contents (Elt F)),
    StableHlo.unary main_v43 main_v44 (broadcastInDim S850000x256 ![0, 1] bcast_S850000x1_S850000x256_0_1 : (⟨S850000x1, .f32⟩ : BufTy).Contents (Elt F) → (⟨S850000x256, .f32⟩ : BufTy).Contents (Elt F)),
    StableHlo.binary main_v42 main_v44 main_v45 (mulf : (⟨S850000x256, .f32⟩ : BufTy).Contents (Elt F) → (⟨S850000x256, .f32⟩ : BufTy).Contents (Elt F) → (⟨S850000x256, .f32⟩ : BufTy).Contents (Elt F)),
    StableHlo.nullary main_cst_10 (constant S_ .f32 0x00000000#32),
    StableHlo.unary main_cst_10 main_v46 (broadcastInDim S50000x256 ![] bcast_S_S50000x256 : (⟨S_, .f32⟩ : BufTy).Contents (Elt F) → (⟨S50000x256, .f32⟩ : BufTy).Contents (Elt F)),
    StableHlo.unary main_v10 main_v47 (broadcastInDim S850000x1 ![0] bcast_S850000_S850000x1_0 : (⟨S850000, .i32⟩ : BufTy).Contents (Elt F) → (⟨S850000x1, .i32⟩ : BufTy).Contents (Elt F)),
    StableHlo.ternary main_v46 main_v47 main_v45 main_v48 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.nullary main_c_11 (constantI S_ 32 0#32),
    StableHlo.unary main_c_11 main_v49 (broadcastInDim S850000 ![] bcast_S_S850000 : (⟨S_, .i32⟩ : BufTy).Contents (Elt F) → (⟨S850000, .i32⟩ : BufTy).Contents (Elt F)),
    StableHlo.binary main_v7 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v51 (broadcastInDim S850000 ![] bcast_S_S850000 : (⟨S_, .i32⟩ : BufTy).Contents (Elt F) → (⟨S850000, .i32⟩ : BufTy).Contents (Elt F)),
    StableHlo.binary main_v7 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v7 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v35 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x256 ![0, 1] bcast_S850000x1_S850000x256_0_1 : (⟨S850000x1, .f32⟩ : BufTy).Contents (Elt F) → (⟨S850000x256, .f32⟩ : BufTy).Contents (Elt F)),
    StableHlo.binary main_v55 main_v57 main_v58 (mulf : (⟨S850000x256, .f32⟩ : BufTy).Contents (Elt F) → (⟨S850000x256, .f32⟩ : BufTy).Contents (Elt F) → (⟨S850000x256, .f32⟩ : BufTy).Contents (Elt F)),
    StableHlo.nullary main_cst_13 (constant S_ .f32 0x00000000#32),
    StableHlo.unary main_cst_13 main_v59 (broadcastInDim S50000x256 ![] bcast_S_S50000x256 : (⟨S_, .f32⟩ : BufTy).Contents (Elt F) → (⟨S50000x256, .f32⟩ : BufTy).Contents (Elt F)),
    StableHlo.unary main_v10 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v62 ((transpose S256x128 [1, 0] · transposes_S128x256_S256x128_1_0) : (⟨S128x256, .f32⟩ : BufTy).Contents (Elt F) → (⟨S256x128, .f32⟩ : BufTy).Contents (Elt F)),
    StableHlo.binary main_v61 main_v62 main_v63 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- The entry function is that straight line: the called functions unfolded at their calls and the sequencing
    reassociated, both sides are one chain of steps. -/
theorem main_eq (c : Dev nD) : main (F := F) c = seq (opsA ++ opsB) := by
  simp only [main, main_part0, main_part1, fn_elu.body, fn_where.body, fn_where_0.body, fn_where_1.body, fn_where_2.body,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

theorem opsB_sub : (opsB : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.unary_bufs_sub .., StableHlo.binary_bufs_sub ..⟩

theorem ops_sub : (opsA ++ opsB : List (HloOp τ sig (Elt F))).Forall fun op => op.bufs ⊆ tcRefs τ sig :=
  List.forall_iff_forall_mem.mpr fun op hop => by
    rcases List.mem_append.mp hop with h | h
    · exact List.forall_iff_forall_mem.mp opsA_sub op h
    · exact List.forall_iff_forall_mem.mp opsB_sub op h

/-- Every weakly fair execution of the entry function terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsA ++ opsB) (launchContents m c) (b : DevRef τ sig) :=
  run_seq scopedRefs_eq scopedSems_eq defs main (fun _ => opsA ++ opsB) main_eq (fun _ => ops_sub) m ρ

end Cert.ReferenceIdeal.HandRun

end
-- ==== Proof.RefRead.lean ====
import proofs.«130008_j46316927320539_2_alg».proof.Proof.RefRun
import proofs.«130008_j46316927320539_2_alg».proof.Proof.Prefix
import proofs.«130008_j46316927320539_2_alg».proof.Proof.LibPropagate
import proofs.«130008_j46316927320539_2_alg».proof.Proof.LibAfterStep
import proofs.«130008_j46316927320539_2_alg».proof.Proof.Gen.KernelIdeal
import Idealize.ShloMosaic.PureOps.Ideal

/-!
# The reference program's final value, read off its operation list

The reference is a straight line of host operations. Its first part computes the edge data in six stretches; each
stretch is read here by itself, over an arbitrary valuation of the buffers it starts from: the exponential linear unit
of the edge weights; the clamp's condition; the clamped weights; the edge words, all weights and the degrees; the
inverse square roots; the normalised weights. Its second part is read in two stretches: the first propagation hop, then
the second hop, the product with the transposed weight matrix and the bias. Chained, the stretches give the result
buffer as a function of the five argument arrays: two hops of the node features along the normalised weights, times
the transposed weights, plus the bias. No operation writes an argument buffer, so each ends as it started.
-/

noncomputable section
namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## First stretch: the exponential linear unit -/

theorem r0_v0 (W : Valuation τ sig (Elt F)) :
    after R0 W (Proc.devRef .tc main_v0) = Cert.KernelIdeal.Spec.eluOf (F := F) (W (Proc.devRef .tc main_arg2)) := by
  simp only [R0]
  after_results_simp
  rfl

theorem r0_arg0 (W : Valuation τ sig (Elt F)) :
    after R0 W (Proc.devRef .tc main_arg0) = W (Proc.devRef .tc main_arg0) := by
  simp only [R0]
  after_results_simp

theorem r0_arg1 (W : Valuation τ sig (Elt F)) :
    after R0 W (Proc.devRef .tc main_arg1) = W (Proc.devRef .tc main_arg1) := by
  simp only [R0]
  after_results_simp

theorem r0_arg2 (W : Valuation τ sig (Elt F)) :
    after R0 W (Proc.devRef .tc main_arg2) = W (Proc.devRef .tc main_arg2) := by
  simp only [R0]
  after_results_simp

theorem r0_arg3 (W : Valuation τ sig (Elt F)) :
    after R0 W (Proc.devRef .tc main_arg3) = W (Proc.devRef .tc main_arg3) := by
  simp only [R0]
  after_results_simp

theorem r0_arg4 (W : Valuation τ sig (Elt F)) :
    after R0 W (Proc.devRef .tc main_arg4) = W (Proc.devRef .tc main_arg4) := by
  simp only [R0]
  after_results_simp

/-! ## Second stretch: the clamp's condition and literal -/

theorem r1_v2 (W : Valuation τ sig (Elt F)) :
    after R1 W (Proc.devRef .tc main_v2) = cmpf .ole (W (Proc.devRef .tc main_v0)) (broadcastInDim S800000 ![] bcast_S_S800000 (constant S_ .f32 0x00000000#32)) := by
  simp only [R1]
  after_results_simp

theorem r1_cst_0 (W : Valuation τ sig (Elt F)) :
    after R1 W (Proc.devRef .tc main_cst_0) = constant S_ .f32 0x33D6BF95#32 := by
  simp only [R1]
  after_results_simp

theorem r1_arg0 (W : Valuation τ sig (Elt F)) :
    after R1 W (Proc.devRef .tc main_arg0) = W (Proc.devRef .tc main_arg0) := by
  simp only [R1]
  after_results_simp

theorem r1_arg1 (W : Valuation τ sig (Elt F)) :
    after R1 W (Proc.devRef .tc main_arg1) = W (Proc.devRef .tc main_arg1) := by
  simp only [R1]
  after_results_simp

theorem r1_arg2 (W : Valuation τ sig (Elt F)) :
    after R1 W (Proc.devRef .tc main_arg2) = W (Proc.devRef .tc main_arg2) := by
  simp only [R1]
  after_results_simp

theorem r1_arg3 (W : Valuation τ sig (Elt F)) :
    after R1 W (Proc.devRef .tc main_arg3) = W (Proc.devRef .tc main_arg3) := by
  simp only [R1]
  after_results_simp

theorem r1_arg4 (W : Valuation τ sig (Elt F)) :
    after R1 W (Proc.devRef .tc main_arg4) = W (Proc.devRef .tc main_arg4) := by
  simp only [R1]
  after_results_simp

/-! ## Third stretch: the clamped weights -/

theorem r2_v3 (W : Valuation τ sig (Elt F)) :
    after R2 W (Proc.devRef .tc main_v3)
      = select (W (Proc.devRef .tc main_v2)) (broadcastInDim S800000 ![] bcast_S_S800000 (W (Proc.devRef .tc main_cst_0))) (W (Proc.devRef .tc main_arg2)) := by
  simp only [R2]
  after_results_simp
  rfl

theorem r2_arg0 (W : Valuation τ sig (Elt F)) :
    after R2 W (Proc.devRef .tc main_arg0) = W (Proc.devRef .tc main_arg0) := by
  simp only [R2]
  after_results_simp

theorem r2_arg1 (W : Valuation τ sig (Elt F)) :
    after R2 W (Proc.devRef .tc main_arg1) = W (Proc.devRef .tc main_arg1) := by
  simp only [R2]
  after_results_simp

theorem r2_arg3 (W : Valuation τ sig (Elt F)) :
    after R2 W (Proc.devRef .tc main_arg3) = W (Proc.devRef .tc main_arg3) := by
  simp only [R2]
  after_results_simp

theorem r2_arg4 (W : Valuation τ sig (Elt F)) :
    after R2 W (Proc.devRef .tc main_arg4) = W (Proc.devRef .tc main_arg4) := by
  simp only [R2]
  after_results_simp

/-! ## Fourth stretch: the edge words, all weights, the degrees -/

theorem r3_v7 (W : Valuation τ sig (Elt F)) :
    after R3 W (Proc.devRef .tc main_v7) = Cert.KernelIdeal.Spec.srcOf (W (Proc.devRef .tc main_arg1)) := by
  simp only [R3]
  after_results_simp
  rfl

theorem r3_v10 (W : Valuation τ sig (Elt F)) :
    after R3 W (Proc.devRef .tc main_v10) = Cert.KernelIdeal.Spec.tgtOf (W (Proc.devRef .tc main_arg1)) := by
  simp only [R3]
  after_results_simp
  rfl

theorem r3_v12 (W : Valuation τ sig (Elt F)) :
    after R3 W (Proc.devRef .tc main_v12)
      = catF (F := F) (W (Proc.devRef .tc main_v3)) (broadcastInDim S50000 ![] bcast_S_S50000 (constant S_ .f32 0x3F800000#32)) := by
  simp only [R3]
  after_results_simp

/-- The degrees over a valuation: the weights scattered by the target words. -/
def degW (W : Valuation τ sig (Elt F)) : FVec F S50000 .f32 :=
  Host.scatterAdd scatter_S50000_S850000x1_S850000_n_0_0_1 (broadcastInDim S50000 ![] bcast_S_S50000 (constant S_ .f32 0x00000000#32)) (Cert.KernelIdeal.Spec.colOf (Cert.KernelIdeal.Spec.tgtOf (W (Proc.devRef .tc main_arg1))))
    (catF (F := F) (W (Proc.devRef .tc main_v3)) (broadcastInDim S50000 ![] bcast_S_S50000 (constant S_ .f32 0x3F800000#32)))

theorem r3_v17 (W : Valuation τ sig (Elt F)) :
    after R3 W (Proc.devRef .tc main_v17) = cmpf .ogt (degW (F := F) W) (broadcastInDim S50000 ![] bcast_S_S50000 (constant S_ .f32 0x00000000#32)) := by
  simp only [R3]
  after_results_simp
  rfl

theorem r3_v18 (W : Valuation τ sig (Elt F)) :
    after R3 W (Proc.devRef .tc main_v18) = Host.rsqrt (degW (F := F) W) := by
  simp only [R3]
  after_results_simp
  rfl

theorem r3_cst_4 (W : Valuation τ sig (Elt F)) :
    after R3 W (Proc.devRef .tc main_cst_4) = constant S_ .f32 0x00000000#32 := by
  simp only [R3]
  after_results_simp

theorem r3_arg0 (W : Valuation τ sig (Elt F)) :
    after R3 W (Proc.devRef .tc main_arg0) = W (Proc.devRef .tc main_arg0) := by
  simp only [R3]
  after_results_simp

theorem r3_arg3 (W : Valuation τ sig (Elt F)) :
    after R3 W (Proc.devRef .tc main_arg3) = W (Proc.devRef .tc main_arg3) := by
  simp only [R3]
  after_results_simp

theorem r3_arg4 (W : Valuation τ sig (Elt F)) :
    after R3 W (Proc.devRef .tc main_arg4) = W (Proc.devRef .tc main_arg4) := by
  simp only [R3]
  after_results_simp

/-! ## Fifth stretch: the inverse square roots where the degree is positive -/

theorem r4_v19 (W : Valuation τ sig (Elt F)) :
    after R4 W (Proc.devRef .tc main_v19)
      = select (W (Proc.devRef .tc main_v17)) (W (Proc.devRef .tc main_v18)) (broadcastInDim S50000 ![] bcast_S_S50000 (W (Proc.devRef .tc main_cst_4))) := by
  simp only [R4]
  after_results_simp
  rfl

theorem r4_v7 (W : Valuation τ sig (Elt F)) :
    after R4 W (Proc.devRef .tc main_v7) = W (Proc.devRef .tc main_v7) := by
  simp only [R4]
  after_results_simp

theorem r4_v10 (W : Valuation τ sig (Elt F)) :
    after R4 W (Proc.devRef .tc main_v10) = W (Proc.devRef .tc main_v10) := by
  simp only [R4]
  after_results_simp

theorem r4_v12 (W : Valuation τ sig (Elt F)) :
    after R4 W (Proc.devRef .tc main_v12) = W (Proc.devRef .tc main_v12) := by
  simp only [R4]
  after_results_simp

theorem r4_arg0 (W : Valuation τ sig (Elt F)) :
    after R4 W (Proc.devRef .tc main_arg0) = W (Proc.devRef .tc main_arg0) := by
  simp only [R4]
  after_results_simp

theorem r4_arg3 (W : Valuation τ sig (Elt F)) :
    after R4 W (Proc.devRef .tc main_arg3) = W (Proc.devRef .tc main_arg3) := by
  simp only [R4]
  after_results_simp

theorem r4_arg4 (W : Valuation τ sig (Elt F)) :
    after R4 W (Proc.devRef .tc main_arg4) = W (Proc.devRef .tc main_arg4) := by
  simp only [R4]
  after_results_simp

/-! ## Sixth stretch: the normalised weights -/

theorem r5_v35 (W : Valuation τ sig (Elt F)) :
    after R5 W (Proc.devRef .tc main_v35)
      = mulf (mulf (Host.gather gather_S50000_S850000x1_S850000_n_0_n_n_0_1_1 (W (Proc.devRef .tc main_v19)) (Cert.KernelIdeal.Spec.colOf (Cert.KernelIdeal.Spec.wrapOf (W (Proc.devRef .tc main_v7))))) (W (Proc.devRef .tc main_v12)))
          (Host.gather gather_S50000_S850000x1_S850000_n_0_n_n_0_1_1 (W (Proc.devRef .tc main_v19)) (Cert.KernelIdeal.Spec.colOf (Cert.KernelIdeal.Spec.wrapOf (W (Proc.devRef .tc main_v10))))) := by
  simp only [R5]
  after_results_simp
  rfl

theorem r5_v7 (W : Valuation τ sig (Elt F)) :
    after R5 W (Proc.devRef .tc main_v7) = W (Proc.devRef .tc main_v7) := by
  simp only [R5]
  after_results_simp

theorem r5_v10 (W : Valuation τ sig (Elt F)) :
    after R5 W (Proc.devRef .tc main_v10) = W (Proc.devRef .tc main_v10) := by
  simp only [R5]
  after_results_simp

theorem r5_arg0 (W : Valuation τ sig (Elt F)) :
    after R5 W (Proc.devRef .tc main_arg0) = W (Proc.devRef .tc main_arg0) := by
  simp only [R5]
  after_results_simp

theorem r5_arg3 (W : Valuation τ sig (Elt F)) :
    after R5 W (Proc.devRef .tc main_arg3) = W (Proc.devRef .tc main_arg3) := by
  simp only [R5]
  after_results_simp

theorem r5_arg4 (W : Valuation τ sig (Elt F)) :
    after R5 W (Proc.devRef .tc main_arg4) = W (Proc.devRef .tc main_arg4) := by
  simp only [R5]
  after_results_simp

/-! ## The six stretches chained: the edge data as functions of the argument arrays -/

theorem A_v7 (W : Valuation τ sig (Elt F)) :
    after opsA W (Proc.devRef .tc main_v7) = Cert.KernelIdeal.Spec.srcOf (W (Proc.devRef .tc main_arg1)) := by
  rw [opsA_eq]
  simp only [Cert.Lib.after_append]
  rw [r5_v7, r4_v7, r3_v7, r2_arg1, r1_arg1, r0_arg1]

theorem A_v10 (W : Valuation τ sig (Elt F)) :
    after opsA W (Proc.devRef .tc main_v10) = Cert.KernelIdeal.Spec.tgtOf (W (Proc.devRef .tc main_arg1)) := by
  rw [opsA_eq]
  simp only [Cert.Lib.after_append]
  rw [r5_v10, r4_v10, r3_v10, r2_arg1, r1_arg1, r0_arg1]

theorem A_v35 (W : Valuation τ sig (Elt F)) :
    after opsA W (Proc.devRef .tc main_v35) = Cert.KernelIdeal.Spec.nrmOf (F := F) (W (Proc.devRef .tc main_arg1)) (W (Proc.devRef .tc main_arg2)) := by
  rw [opsA_eq]
  simp only [Cert.Lib.after_append]
  rw [r5_v35, r4_v19, r4_v7, r4_v10, r4_v12, r3_v17, r3_v18, r3_cst_4, r3_v7, r3_v10, r3_v12]
  unfold degW
  rw [r2_v3, r2_arg1, r1_v2, r1_cst_0, r1_arg1, r1_arg2, r0_v0, r0_arg1, r0_arg2]
  rfl

theorem A_arg0 (W : Valuation τ sig (Elt F)) :
    after opsA W (Proc.devRef .tc main_arg0) = W (Proc.devRef .tc main_arg0) := by
  rw [opsA_eq]
  simp only [Cert.Lib.after_append]
  rw [r5_arg0, r4_arg0, r3_arg0, r2_arg0, r1_arg0, r0_arg0]

theorem A_arg3 (W : Valuation τ sig (Elt F)) :
    after opsA W (Proc.devRef .tc main_arg3) = W (Proc.devRef .tc main_arg3) := by
  rw [opsA_eq]
  simp only [Cert.Lib.after_append]
  rw [r5_arg3, r4_arg3, r3_arg3, r2_arg3, r1_arg3, r0_arg3]

theorem A_arg4 (W : Valuation τ sig (Elt F)) :
    after opsA W (Proc.devRef .tc main_arg4) = W (Proc.devRef .tc main_arg4) := by
  rw [opsA_eq]
  simp only [Cert.Lib.after_append]
  rw [r5_arg4, r4_arg4, r3_arg4, r2_arg4, r1_arg4, r0_arg4]

/-! ## The propagation in two stretches -/

/-- The first hop: the source rows of the node features scaled by the normalised weights and added at the targets. -/
abbrev B1 : List (HloOp τ sig (Elt F)) :=
  [ StableHlo.nullary main_c_8 (constantI S_ 32 0#32),
    StableHlo.unary main_c_8 main_v36 (broadcastInDim S850000 ![] bcast_S_S850000 : (⟨S_, .i32⟩ : BufTy).Contents (Elt F) → (⟨S850000, .i32⟩ : BufTy).Contents (Elt F)),
    StableHlo.binary main_v7 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v38 (broadcastInDim S850000 ![] bcast_S_S850000 : (⟨S_, .i32⟩ : BufTy).Contents (Elt F) → (⟨S850000, .i32⟩ : BufTy).Contents (Elt F)),
    StableHlo.binary main_v7 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v7 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_arg0 main_v41 main_v42 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v35 main_v43 (broadcastInDim S850000x1 ![0] bcast_S850000_S850000x1_0 : (⟨S850000, .f32⟩ : BufTy).Contents (Elt F) → (⟨S850000x1, .f32⟩ : BufTy).Contents (Elt F)),
    StableHlo.unary main_v43 main_v44 (broadcastInDim S850000x256 ![0, 1] bcast_S850000x1_S850000x256_0_1 : (⟨S850000x1, .f32⟩ : BufTy).Contents (Elt F) → (⟨S850000x256, .f32⟩ : BufTy).Contents (Elt F)),
    StableHlo.binary main_v42 main_v44 main_v45 (mulf : (⟨S850000x256, .f32⟩ : BufTy).Contents (Elt F) → (⟨S850000x256, .f32⟩ : BufTy).Contents (Elt F) → (⟨S850000x256, .f32⟩ : BufTy).Contents (Elt F)),
    StableHlo.nullary main_cst_10 (constant S_ .f32 0x00000000#32),
    StableHlo.unary main_cst_10 main_v46 (broadcastInDim S50000x256 ![] bcast_S_S50000x256 : (⟨S_, .f32⟩ : BufTy).Contents (Elt F) → (⟨S50000x256, .f32⟩ : BufTy).Contents (Elt F)),
    StableHlo.unary main_v10 main_v47 (broadcastInDim S850000x1 ![0] bcast_S850000_S850000x1_0 : (⟨S850000, .i32⟩ : BufTy).Contents (Elt F) → (⟨S850000x1, .i32⟩ : BufTy).Contents (Elt F)),
    StableHlo.ternary main_v46 main_v47 main_v45 main_v48 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The second hop, the product with the transposed weights and the bias. -/
abbrev B2 : List (HloOp τ sig (Elt F)) :=
  [ StableHlo.nullary main_c_11 (constantI S_ 32 0#32),
    StableHlo.unary main_c_11 main_v49 (broadcastInDim S850000 ![] bcast_S_S850000 : (⟨S_, .i32⟩ : BufTy).Contents (Elt F) → (⟨S850000, .i32⟩ : BufTy).Contents (Elt F)),
    StableHlo.binary main_v7 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v51 (broadcastInDim S850000 ![] bcast_S_S850000 : (⟨S_, .i32⟩ : BufTy).Contents (Elt F) → (⟨S850000, .i32⟩ : BufTy).Contents (Elt F)),
    StableHlo.binary main_v7 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v7 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v35 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x256 ![0, 1] bcast_S850000x1_S850000x256_0_1 : (⟨S850000x1, .f32⟩ : BufTy).Contents (Elt F) → (⟨S850000x256, .f32⟩ : BufTy).Contents (Elt F)),
    StableHlo.binary main_v55 main_v57 main_v58 (mulf : (⟨S850000x256, .f32⟩ : BufTy).Contents (Elt F) → (⟨S850000x256, .f32⟩ : BufTy).Contents (Elt F) → (⟨S850000x256, .f32⟩ : BufTy).Contents (Elt F)),
    StableHlo.nullary main_cst_13 (constant S_ .f32 0x00000000#32),
    StableHlo.unary main_cst_13 main_v59 (broadcastInDim S50000x256 ![] bcast_S_S50000x256 : (⟨S_, .f32⟩ : BufTy).Contents (Elt F) → (⟨S50000x256, .f32⟩ : BufTy).Contents (Elt F)),
    StableHlo.unary main_v10 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v62 ((transpose S256x128 [1, 0] · transposes_S128x256_S256x128_1_0) : (⟨S128x256, .f32⟩ : BufTy).Contents (Elt F) → (⟨S256x128, .f32⟩ : BufTy).Contents (Elt F)),
    StableHlo.binary main_v61 main_v62 main_v63 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)) ]

/-- The propagation operations are the two stretches in order. -/
theorem opsB_eq : (opsB : List (HloOp τ sig (Elt F))) = B1 ++ B2 := rfl

theorem b1_v48 (W : Valuation τ sig (Elt Ideal)) :
    after B1 W (Proc.devRef .tc main_v48)
      = (Cert.Lib.hop gather_S50000x256_S850000x1_S850000x256_1_0_n_n_0_1_1256_wf scatter_S50000x256_S850000x1_S850000x256_1_0_0_1_wf bcast_S_S50000x256 bcast_S850000_S850000x1_0 bcast_S850000x1_S850000x256_0_1 (W (Proc.devRef .tc main_arg0))
        (Cert.KernelIdeal.Spec.colOf (Cert.KernelIdeal.Spec.wrapOf (W (Proc.devRef .tc main_v7)))) (Cert.KernelIdeal.Spec.colOf (W (Proc.devRef .tc main_v10))) (W (Proc.devRef .tc main_v35))) := by
  simp only [B1]
  after_results_simp
  rfl

theorem b1_v7 (W : Valuation τ sig (Elt Ideal)) :
    after B1 W (Proc.devRef .tc main_v7) = W (Proc.devRef .tc main_v7) := by
  simp only [B1]
  after_results_simp

theorem b1_v10 (W : Valuation τ sig (Elt Ideal)) :
    after B1 W (Proc.devRef .tc main_v10) = W (Proc.devRef .tc main_v10) := by
  simp only [B1]
  after_results_simp

theorem b1_v35 (W : Valuation τ sig (Elt Ideal)) :
    after B1 W (Proc.devRef .tc main_v35) = W (Proc.devRef .tc main_v35) := by
  simp only [B1]
  after_results_simp

theorem b1_arg3 (W : Valuation τ sig (Elt Ideal)) :
    after B1 W (Proc.devRef .tc main_arg3) = W (Proc.devRef .tc main_arg3) := by
  simp only [B1]
  after_results_simp

theorem b1_arg4 (W : Valuation τ sig (Elt Ideal)) :
    after B1 W (Proc.devRef .tc main_arg4) = W (Proc.devRef .tc main_arg4) := by
  simp only [B1]
  after_results_simp

theorem b2_v66 (W : Valuation τ sig (Elt Ideal)) :
    after B2 W (Proc.devRef .tc main_v66)
      = addf (Host.dotGeneral dot_S50000x256_S256x128_S50000x128_1_0_0_1_n_n none
            (Cert.Lib.hop gather_S50000x256_S850000x1_S850000x256_1_0_n_n_0_1_1256_wf scatter_S50000x256_S850000x1_S850000x256_1_0_0_1_wf bcast_S_S50000x256 bcast_S850000_S850000x1_0 bcast_S850000x1_S850000x256_0_1 (W (Proc.devRef .tc main_v48))
        (Cert.KernelIdeal.Spec.colOf (Cert.KernelIdeal.Spec.wrapOf (W (Proc.devRef .tc main_v7)))) (Cert.KernelIdeal.Spec.colOf (W (Proc.devRef .tc main_v10))) (W (Proc.devRef .tc main_v35)))
            (transpose S256x128 [1, 0] (W (Proc.devRef .tc main_arg3)) transposes_S128x256_S256x128_1_0 : FVec Ideal S256x128 .f32))
          (broadcastInDim S50000x128 ![0, 1] bcast_S1x128_S50000x128_0_1 (broadcastInDim S1x128 ![1] bcast_S128_S1x128_1 (W (Proc.devRef .tc main_arg4)))) := by
  simp only [B2]
  after_results_simp
  rfl

/-! ## The final value -/

/-- The row words every hop reads: the source words, negative ones moved up, as a column. -/
abbrev rowW (a1 : IVec S2x800000 32) : IVec S850000x1 32 := Cert.KernelIdeal.Spec.colOf (Cert.KernelIdeal.Spec.wrapOf (Cert.KernelIdeal.Spec.srcOf a1))
/-- The column words every hop adds at: the target words as a column. -/
abbrev colW (a1 : IVec S2x800000 32) : IVec S850000x1 32 := Cert.KernelIdeal.Spec.colOf (Cert.KernelIdeal.Spec.tgtOf a1)
/-- one hop at the full width -/
abbrev hopR (h : FVec Ideal S50000x256 .f32) (a1 : IVec S2x800000 32) (a2 : FVec Ideal S800000 .f32) : FVec Ideal S50000x256 .f32 :=
  Cert.Lib.hop gather_S50000x256_S850000x1_S850000x256_1_0_n_n_0_1_1256_wf scatter_S50000x256_S850000x1_S850000x256_1_0_0_1_wf bcast_S_S50000x256 bcast_S850000_S850000x1_0 bcast_S850000x1_S850000x256_0_1 h (rowW a1) (colW a1) (Cert.KernelIdeal.Spec.nrmOf (F := Ideal) a1 a2)

/-- The reference's result as a function of the five argument arrays: two hops of the node features along the
    normalised weights, times the transposed weight matrix, plus the bias spread over the rows. -/
def refTerm (x : FVec Ideal S50000x256 .f32) (a1 : IVec S2x800000 32) (a2 : FVec Ideal S800000 .f32)
    (a3 : FVec Ideal S128x256 .f32) (a4 : FVec Ideal S128 .f32) : FVec Ideal S50000x128 .f32 :=
  addf (Host.dotGeneral dot_S50000x256_S256x128_S50000x128_1_0_0_1_n_n none (hopR (hopR x a1 a2) a1 a2) (transpose S256x128 [1, 0] a3 transposes_S128x256_S256x128_1_0))
    (broadcastInDim S50000x128 ![0, 1] bcast_S1x128_S50000x128_0_1 (broadcastInDim S1x128 ![1] bcast_S128_S1x128_1 a4))

/-- THE REFERENCE'S RESULT: the result buffer ends at that function of the argument buffers' launch contents. -/
theorem ref_v66 (V : Valuation τ sig (Elt Ideal)) :
    after (opsA ++ opsB) V (Proc.devRef .tc main_v66)
      = refTerm (V (Proc.devRef .tc main_arg0)) (V (Proc.devRef .tc main_arg1)) (V (Proc.devRef .tc main_arg2)) (V (Proc.devRef .tc main_arg3)) (V (Proc.devRef .tc main_arg4)) := by
  unfold refTerm
  rw [Cert.Lib.after_append, opsB_eq, Cert.Lib.after_append, b2_v66, b1_v48, b1_v7, b1_v10, b1_v35, b1_arg3, b1_arg4,
    A_v7, A_v10, A_v35, A_arg0, A_arg3, A_arg4]

/-! ## The argument buffers are never written -/

theorem ref_kept0 (V : Valuation τ sig (Elt Ideal)) :
    after (opsA ++ opsB) V (Proc.devRef .tc main_arg0) = V (Proc.devRef .tc main_arg0) := by
  simp only [opsA, opsB, List.cons_append, List.nil_append]
  after_results_simp

theorem ref_kept1 (V : Valuation τ sig (Elt Ideal)) :
    after (opsA ++ opsB) V (Proc.devRef .tc main_arg1) = V (Proc.devRef .tc main_arg1) := by
  simp only [opsA, opsB, List.cons_append, List.nil_append]
  after_results_simp

theorem ref_kept2 (V : Valuation τ sig (Elt Ideal)) :
    after (opsA ++ opsB) V (Proc.devRef .tc main_arg2) = V (Proc.devRef .tc main_arg2) := by
  simp only [opsA, opsB, List.cons_append, List.nil_append]
  after_results_simp

theorem ref_kept3 (V : Valuation τ sig (Elt Ideal)) :
    after (opsA ++ opsB) V (Proc.devRef .tc main_arg3) = V (Proc.devRef .tc main_arg3) := by
  simp only [opsA, opsB, List.cons_append, List.nil_append]
  after_results_simp

theorem ref_kept4 (V : Valuation τ sig (Elt Ideal)) :
    after (opsA ++ opsB) V (Proc.devRef .tc main_arg4) = V (Proc.devRef .tc main_arg4) := by
  simp only [opsA, opsB, List.cons_append, List.nil_append]
  after_results_simp

end Cert.ReferenceIdeal.HandRun
end
-- ==== Proof.LibDotGeneralPlain.lean ====
/-
  A host `dot_general` with the plain dimension numbers, read at an entry, over the extended reals.

  For `DotDims.plain M K N` (an `M × K` left operand, a `K × N` right operand, the left one's columns contracted with
  the right one's rows, no batch axis) entry `(p, q)` of the host's product is `Σ_{k < K} l (p, k) * r (k, q)`, whatever
  the precision attribute: the contraction index has one coordinate, which runs over `Fin K`.
-/
import Idealize.ShloMosaic.PureOps.Ideal.Laws
import Idealize.ShloMosaic.Lib.ValueIdx
import proofs.«130008_j46316927320539_2_alg».proof.Proof.LibMatmulPlain

noncomputable section

open scoped BigOperators

namespace Cert.Lib

open Idealize.ShloMosaic Idealize.ShloMosaic.ValueIdx

/-- ENTRY `(p, q)` OF A PLAIN HOST PRODUCT: the sum over `k : Fin K` of `l (p, k) * r (k, q)`. -/
theorem dotGeneral_plain_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.LibTwoHops.lean ====
import proofs.«130008_j46316927320539_2_alg».proof.Proof.LibPropagate
import proofs.«130008_j46316927320539_2_alg».proof.Proof.LibDotGeneralPlain
import Idealize.ShloMosaic.Lib.ValueLayout

/-!
# Projecting before or after two propagation hops

A propagation hop acts on the node axis and a product with a matrix acts on the feature axis, so for real-valued
data the two commute: two hops of `x · wt` are two hops of `x`, times `wt`. The first is what the kernel's program
computes (the product by its kernel, then the hops at the narrow width), the second what the reference computes (the
hops at the full width, then the host's product).
-/

noncomputable section
open scoped BigOperators
open Idealize.ShloMosaic Idealize.ShloMosaic.ValueIdx

namespace Cert.Lib

/-- A transposed real-valued matrix is real-valued. -/
theorem realValued_transpose {a b : ℕ} (x : FVec Ideal ⟨2, ![a, b]⟩ .f32)
    (h : (⟨2, ![a, b]⟩ : Shape).Transposes [1, 0] ⟨2, ![b, a]⟩) (hx : RealValued x) :
    RealValued (transpose ⟨2, ![b, a]⟩ [1, 0] x h) := fun i => by
  obtain ⟨j, k, rfl⟩ : ∃ (j : Fin b) (k : Fin a), i = ix2 j k := ⟨i 0, i 1, eq_ix2 i⟩
  rw [transpose_ix2_apply]
  exact hx _

/-- TWO HOPS OF A PRODUCT ARE THE PRODUCT OF TWO HOPS. With `P = x · wt` entry by entry and `x`, `wt` and the edge
    weights real-valued, entry `(n, q)` of two hops of `P` is entry `(n, q)` of the host's product of two hops of `x`
    with `wt`. -/
theorem two_hops_matmul {N E K M : Nat} (hN : 0 < N)
    (wfgK : GatherDims.WF ⟨2, ![N, K]⟩ ⟨2, ![E, 1]⟩ ⟨2, ![E, K]⟩ [1] [0] [] [0] [] 1 ![1, K])
    (wfsK : ScatterDims.WF ⟨2, ![N, K]⟩ ⟨2, ![E, 1]⟩ ⟨2, ![E, K]⟩ [1] [0] [0] 1)
    (hzK : (⟨0, ![]⟩ : Shape).BroadcastsInDim ⟨2, ![N, K]⟩ (![] : Fin 0 → Fin (⟨2, ![N, K]⟩ : Shape).rank))
    (hb2K : (⟨2, ![E, 1]⟩ : Shape).BroadcastsInDim ⟨2, ![E, K]⟩ (![0, 1] : Fin 2 → Fin (⟨2, ![E, K]⟩ : Shape).rank))
    (wfgM : GatherDims.WF ⟨2, ![N, M]⟩ ⟨2, ![E, 1]⟩ ⟨2, ![E, M]⟩ [1] [0] [] [0] [] 1 ![1, M])
    (wfsM : ScatterDims.WF ⟨2, ![N, M]⟩ ⟨2, ![E, 1]⟩ ⟨2, ![E, M]⟩ [1] [0] [0] 1)
    (hzM : (⟨0, ![]⟩ : Shape).BroadcastsInDim ⟨2, ![N, M]⟩ (![] : Fin 0 → Fin (⟨2, ![N, M]⟩ : Shape).rank))
    (hb2M : (⟨2, ![E, 1]⟩ : Shape).BroadcastsInDim ⟨2, ![E, M]⟩ (![0, 1] : Fin 2 → Fin (⟨2, ![E, M]⟩ : Shape).rank))
    (hb1 : (⟨1, ![E]⟩ : Shape).BroadcastsInDim ⟨2, ![E, 1]⟩ (![0] : Fin 1 → Fin (⟨2, ![E, 1]⟩ : Shape).rank))
    (prec : Option ContractPrecision)
    (x : FVec Ideal ⟨2, ![N, K]⟩ .f32) (wt : FVec Ideal ⟨2, ![K, M]⟩ .f32) (P : FVec Ideal ⟨2, ![N, M]⟩ .f32)
    (rowI colI : IVec ⟨2, ![E, 1]⟩ 32) (nrm : FVec Ideal ⟨1, ![E]⟩ .f32)
    (hx : RealValued x) (hw : RealValued wt) (hn : RealValued nrm)
    (hP : ∀ (n : Fin N) (q : Fin M), P (ix2 n q) = ∑ k : Fin K, x (ix2 n k) * wt (ix2 k q))
    (n : Fin N) (q : Fin M) :
    hop wfgM wfsM hzM hb1 hb2M (hop wfgM wfsM hzM hb1 hb2M P rowI colI nrm) rowI colI nrm (ix2 n q)
      = Host.dotGeneral (DotDims.plain N K M) prec
          (hop wfgK wfsK hzK hb1 hb2K (hop wfgK wfsK hzK hb1 hb2K x rowI colI nrm) rowI colI nrm) wt (ix2 n q) := by
  rw [dotGeneral_plain_apply]
  have h1 : ∀ (n : Fin N) (q : Fin M), hop wfgM wfsM hzM hb1 hb2M P rowI colI nrm (ix2 n q)
      = ∑ k : Fin K, hop wfgK wfsK hzK hb1 hb2K x rowI colI nrm (ix2 n k) * wt (ix2 k q) := fun n q =>
    hop_matmul hN wfgK wfsK hzK hb2K wfgM wfsM hzM hb2M hb1 x wt P rowI colI nrm hx hw hn hP n q
  exact hop_matmul hN wfgK wfsK hzK hb2K wfgM wfsM hzM hb2M hb1 (hop wfgK wfsK hzK hb1 hb2K x rowI colI nrm) wt
    (hop wfgM wfsM hzM hb1 hb2M P rowI colI nrm) rowI colI nrm
    (realValued_hop wfgK wfsK hzK hb1 hb2K x rowI colI nrm hx hn) hw hn h1 n q

end Cert.Lib

end
-- ==== Proof.LibRealOps.lean ====
/-
  Operations that keep an array of extended reals real-valued.

  Floats are read as extended reals and an array is REAL-VALUED when no entry is an infinity. Several array
  operations only move entries around, so they keep that property whatever their index arithmetic: a choice between
  two arrays entry by entry, a spreading of an array along new axes, a gather (every result entry is some operand
  entry), a concatenation (every result entry is an entry of one piece). An accumulating scatter adds to each operand
  entry a finite sum of update entries, and sums of reals are real. A bit pattern whose exponent field is not all ones
  denotes a real number (zero, a subnormal or a normal number). The inverse square root of a positive real is a real,
  so taking it only where an entry is positive, and zero elsewhere, keeps an array real-valued.
-/
import Idealize.ShloMosaic.PureOps.Ideal
import Idealize.ShloMosaic.PureOps.Ideal.Laws
import Idealize.ShloMosaic.Lib.ValueIdx
import proofs.«130008_j46316927320539_2_alg».proof.Proof.LibThreePasses

noncomputable section

open scoped BigOperators

namespace Cert.Lib

open Idealize.ShloMosaic Idealize.ShloMosaic.ValueIdx

/-! ## Bit patterns that denote real numbers -/

/-- A pattern whose exponent field is not all ones denotes a real number: it is zero or subnormal when the field is
    zero and normal otherwise, and in both cases the value is a product of real numbers. -/
theorem isReal_ieee {e m w : Nat} (b : BitVec w) (h : (b.extractLsb' m e).toNat ≠ 2 ^ e - 1) :
    IsReal (Ideal.ieee e m b) := by
  dsimp only [Ideal.ieee]
  rw [if_neg h]
  split
  · exact ⟨_, rfl⟩
  · exact ⟨_, rfl⟩

/-- A 32-bit pattern whose eight exponent bits are not all ones denotes a real number. -/
theorem isReal_ofBits_f32 (b : BitVec 32) (h : (b.extractLsb' 23 8).toNat ≠ 255) : IsReal (Ideal.ofBits .f32 b) :=
  isReal_ieee (e := 8) (m := 23) b h

/-! ## Operations that only move entries around -/

/-- A choice between two real numbers is a real number. -/
theorem isReal_select {c : BitVec 1} {a b : EReal} (ha : IsReal a) (hb : IsReal b) : IsReal (Scalar.select c a b) := by
  unfold Scalar.select
  split
  · exact ha
  · exact hb

/-- A choice, entry by entry, between two real-valued arrays is real-valued. -/
theorem realValued_select {s : Shape} (c : IVec s 1) {a b : s.Idx → EReal} (ha : RealValued a) (hb : RealValued b) :
    RealValued (select c a b) := fun i => isReal_select (ha i) (hb i)

/-- An array every entry of which is one pattern that denotes a real number is real-valued. -/
theorem realValued_constant {s : Shape} {φ : FTy} (b : BitVec φ.bits) (h : IsReal (Ideal.ofBits φ b)) :
    RealValued (constant (F := Ideal) s φ b) := fun _ => h

/-- Spreading a real-valued array along new axes keeps it real-valued: every result entry is an operand entry. -/
theorem realValued_broadcastInDim {s t : Shape} (dims : Fin s.rank → Fin t.rank) (h : s.BroadcastsInDim t dims)
    {x : s.Idx → EReal} (hx : RealValued x) : RealValued (broadcastInDim t dims h x) := fun _ => hx _

/-- A gather of a real-valued array is real-valued, whatever the start indices: every result entry is an operand
    entry. -/
theorem realValued_gather {s si t : Shape} {w : Nat} (d : GatherDims s si t) {x : s.Idx → EReal} (hx : RealValued x)
    (idx : IVec si w) : RealValued (Host.gather d x idx) := fun _ => hx _

/-- A concatenation of real-valued pieces is real-valued: every result entry is an entry of one of the pieces. -/
theorem realValued_concatenate (t : Shape) (a : Fin t.rank) (xs : List ((s : Shape) × (s.Idx → EReal)))
    (h : Shape.Concatenates (xs.map (·.1)) t a) (hx : ∀ p ∈ xs, RealValued p.2) :
    RealValued (concatenate t a xs h) := by
  intro j
  unfold concatenate
  exact hx _ (List.getElem_mem _) _

/-! ## Arithmetic -/

/-- A product, entry by entry, of real-valued arrays is real-valued. -/
theorem realValued_mulf {s : Shape} {φ : FTy} {a b : FVec Ideal s φ} (ha : RealValued a) (hb : RealValued b) :
    RealValued (mulf a b) := fun i => IsReal.mul (ha i) (hb i)

/-- An accumulating scatter of real-valued updates into a real-valued operand is real-valued, wherever the updates
    land: each result entry is the operand's entry plus a finite sum of update entries. -/
theorem realValued_scatterAdd {s si u : Shape} {w : Nat} {φ : FTy} (d : ScatterDims s si u) {x : FVec Ideal s φ}
    (hx : RealValued x) (idx : IVec si w) {upd : FVec Ideal u φ} (hu : RealValued upd) :
    RealValued (Host.scatterAdd d x idx upd) := by
  intro i
  show IsReal (x i + ∑ j ∈ Finset.univ.filter (fun j => d.resultIdx? j idx = some i), upd j)
  exact IsReal.add (hx i) (isReal_sum _ _ fun j _ => hu j)

/-! ## The inverse square root where positive -/

/-- The bit of the comparison `x > y` is 1 exactly when `y < x`. -/
theorem cmp_ogt_eq_one_iff (x y : EReal) : Ideal.cmp .ogt x y = 1#1 ↔ y < x := by
  unfold Ideal.cmp
  by_cases h : y < x <;> simp [h]

/-- The inverse square root of a positive real number is the real number `(√r)⁻¹`. -/
theorem isReal_rsqrt_of_pos {r : ℝ} (hr : 0 < r) : IsReal (Ideal.rsqrt (r : EReal)) := by
  rw [Ideal.rsqrt_coe, if_neg (not_lt.mpr hr.le), if_neg hr.ne']
  exact ⟨_, rfl⟩

/-- The inverse square root taken only where the entry is greater than the entry of `z`, an array of zeros, and
    `z`'s entry elsewhere: real-valued when the array is. Where the comparison bit is 1 the entry is a positive real,
    whose inverse square root is real; elsewhere the result is zero. -/
theorem realValued_rsqrt_where_pos {s : Shape} {φ : FTy} {x z : FVec Ideal s φ} (hx : RealValued x)
    (hz : ∀ i, z i = 0) : RealValued (select (cmpf .ogt x z) (Host.rsqrt x) z) := by
  intro i
  show IsReal (Scalar.select (Ideal.cmp .ogt (x i) (z i)) (Ideal.rsqrt (x i)) (z i))
  obtain ⟨r, hr⟩ := hx i
  rw [hz i, hr]
  unfold Scalar.select
  split
  · rename_i hc
    exact isReal_rsqrt_of_pos (EReal.coe_pos.mp ((cmp_ogt_eq_one_iff _ _).mp hc))
  · exact isReal_zero

end Cert.Lib

end
-- ==== Proof.NrmReal.lean ====
import proofs.«130008_j46316927320539_2_alg».proof.Proof.Prefix
import proofs.«130008_j46316927320539_2_alg».proof.Proof.LibThreePasses
import proofs.«130008_j46316927320539_2_alg».proof.Proof.LibRealOps
import Idealize.ShloMosaic.PureOps.Ideal
import Idealize.ShloMosaic.PureOps.Ideal.Laws
import Idealize.ShloMosaic.Lib.ValueIdx

/-!
# The normalised edge weights are real numbers

When every given edge weight is a real number, so is every normalised weight: a clamped weight is the literal or the
given weight; a degree is a finite sum of such weights and ones; its inverse square root is taken only where the degree
is positive, where it is a positive real, and replaced by zero elsewhere; a normalised weight is a product of two such
values (read at clamped positions) and a weight.
-/

noncomputable section

namespace Cert.KernelIdeal.Spec

open Idealize.ShloMosaic Idealize.ShloMosaic.ValueIdx Cert.KernelIdeal Cert.KernelIdeal.Facts₀ Cert.KernelIdeal.Facts Cert.Lib

variable [Cert.KernelIdeal.Facts]

/-- The weights of the given edges followed by the weights of the self loops are real when both pieces are: every
    entry of the joined vector is an entry of one of the two pieces. -/
theorem realValued_catF {a : FVec Ideal S800000 .f32} {b : FVec Ideal S50000 .f32} (ha : RealValued a)
    (hb : RealValued b) : RealValued (catF (F := Ideal) a b) := by
  unfold catF
  refine realValued_concatenate _ _ _ _ fun p hp => ?_
  rcases List.mem_cons.mp hp with rfl | hp
  · exact ha
  · obtain rfl := List.mem_singleton.mp hp
    exact hb

/-- EVERY NORMALISED WEIGHT IS REAL when every given edge weight is. -/
theorem realValued_nrmOf (a1 : IVec S2x800000 32) (a2 : FVec Ideal S800000 .f32) (h2 : RealValued a2) :
    RealValued (nrmOf (F := Ideal) a1 a2) := by
  -- the three literals (zero, one, the clamp value) have exponent fields 0, 127 and 103: none is all ones
  have zero32 : IsReal (Ideal.ofBits .f32 0x00000000#32) := isReal_ofBits_f32 _ (by decide)
  have one32 : IsReal (Ideal.ofBits .f32 0x3F800000#32) := isReal_ofBits_f32 _ (by decide)
  have lit32 : IsReal (Ideal.ofBits .f32 0x33D6BF95#32) := isReal_ofBits_f32 _ (by decide)
  -- a clamped weight is the literal or the given weight
  have hew : RealValued (ewOf (F := Ideal) a2) :=
    realValued_select _ (realValued_broadcastInDim _ _ (realValued_constant _ lit32)) h2
  -- the weights of all edges: the clamped ones, then ones
  have hw12 : RealValued (w12Of (F := Ideal) a2) := by
    unfold w12Of
    exact realValued_catF hew (realValued_broadcastInDim _ _ (realValued_constant _ one32))
  -- a degree is zero plus a finite sum of such weights
  have hdeg : RealValued (degOf (F := Ideal) a1 a2) :=
    realValued_scatterAdd _ (realValued_broadcastInDim _ _ (realValued_constant _ zero32)) _ hw12
  -- its inverse square root where positive, zero elsewhere
  have hdis : RealValued (disOf (F := Ideal) a1 a2) :=
    realValued_rsqrt_where_pos hdeg fun _ => Ideal.ofBits_zero_f32
  -- a normalised weight is a product of two such values, read at clamped positions, and a weight
  exact realValued_mulf (realValued_mulf (realValued_gather _ hdis _) hw12) (realValued_gather _ hdis _)

end Cert.KernelIdeal.Spec

end
-- ==== Proof.Bridge.lean ====
import proofs.«130008_j46316927320539_2_alg».proof.Proof.KernelRun
import proofs.«130008_j46316927320539_2_alg».proof.Proof.Gen.ReferenceIdeal
import proofs.«130008_j46316927320539_2_alg».proof.Proof.LibTwoHops
import proofs.«130008_j46316927320539_2_alg».proof.Proof.NrmReal

/-!
# The two programs compute one function

The kernel's program projects the node features to the narrow width by its kernel and then propagates twice; the
reference propagates twice at the full width and then projects by the host's product. For real-valued features, weights
and edge weights the normalised edge weights are real, a hop commutes with the product on the feature axis, and the two
results agree entry by entry; the bias row is added last in both.
-/

noncomputable section
open scoped BigOperators

namespace Cert.Bridge

open Idealize.ShloMosaic Idealize.ShloMosaic.ValueIdx Cert.Lib Cert.KernelIdeal Cert.KernelIdeal.Spec

/-- The reference's value as a function of its argument arrays: two hops at the full width, the host's product with
    the transposed weights, plus the bias row spread over the nodes. -/
def rval (x : FVec Ideal Cert.ReferenceIdeal.S50000x256 .f32) (a1 : IVec S2x800000 32) (a2 : FVec Ideal S800000 .f32)
    (a3 : FVec Ideal Cert.ReferenceIdeal.S128x256 .f32) (a4 : FVec Ideal Cert.ReferenceIdeal.S128 .f32) :
    FVec Ideal Cert.ReferenceIdeal.S50000x128 .f32 :=
  addf
    (Host.dotGeneral Cert.ReferenceIdeal.dot_S50000x256_S256x128_S50000x128_1_0_0_1_n_n none
      (hop Cert.ReferenceIdeal.Gen.gather_S50000x256_S850000x1_S850000x256_1_0_n_n_0_1_1256_wf
        Cert.ReferenceIdeal.Gen.scatter_S50000x256_S850000x1_S850000x256_1_0_0_1_wf
        Cert.ReferenceIdeal.Gen.bcast_S_S50000x256 Cert.ReferenceIdeal.Gen.bcast_S850000_S850000x1_0
        Cert.ReferenceIdeal.Gen.bcast_S850000x1_S850000x256_0_1
        (hop Cert.ReferenceIdeal.Gen.gather_S50000x256_S850000x1_S850000x256_1_0_n_n_0_1_1256_wf
          Cert.ReferenceIdeal.Gen.scatter_S50000x256_S850000x1_S850000x256_1_0_0_1_wf
          Cert.ReferenceIdeal.Gen.bcast_S_S50000x256 Cert.ReferenceIdeal.Gen.bcast_S850000_S850000x1_0
          Cert.ReferenceIdeal.Gen.bcast_S850000x1_S850000x256_0_1
          x (colOf (wrapOf (srcOf a1))) (colOf (tgtOf a1)) (nrmOf (F := Ideal) a1 a2))
        (colOf (wrapOf (srcOf a1))) (colOf (tgtOf a1)) (nrmOf (F := Ideal) a1 a2))
      (transpose Cert.ReferenceIdeal.S256x128 [1, 0] a3 Cert.ReferenceIdeal.Gen.transposes_S128x256_S256x128_1_0))
    (broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 a4))

/-- THE TWO VALUES AGREE for real-valued node features, edge weights and weight matrix. -/
theorem value_eq (x : FVec Ideal S50000x256 .f32) (a1 : IVec S2x800000 32) (a2 : FVec Ideal S800000 .f32)
    (a3 : FVec Ideal S128x256 .f32) (a4 : FVec Ideal S128 .f32)
    (hx : RealValued x) (h2 : RealValued a2) (h3 : RealValued a3) :
    rval x a1 a2 a3 a4
      = KRun.tailTerm (ProjValue.proj x (transpose S256x128 [1, 0] a3 Gen.transposes_S128x256_S256x128_1_0))
          (srcOf a1) (tgtOf a1) (nrmOf (F := Ideal) a1 a2) a4 := by
  funext i
  obtain ⟨n, q, rfl⟩ : ∃ (n : Fin 50000) (q : Fin 128), i = ix2 n q := ⟨i 0, i 1, eq_ix2 i⟩
  unfold rval KRun.tailTerm
  rw [addf_apply, addf_apply]
  refine congrArg₂ (· + ·) ?_ rfl
  exact (two_hops_matmul (N := 50000) (E := 850000) (K := 256) (M := 128) (by decide) _ _ _ _ _ _ _ _ _ none x
    (transpose S256x128 [1, 0] a3 Gen.transposes_S128x256_S256x128_1_0) _ _ _ _
    hx (realValued_transpose a3 _ h3) (realValued_nrmOf a1 a2 h2)
    (fun n q => ProjValue.proj_apply x _ n q) n q).symm

end Cert.Bridge

end
-- ==== Proof.LibRealEntries.lean ====
/-
  Entries of a float array that passes the test `all(|x| < +∞)` are real numbers.

  Floats are read here as extended reals. The test takes the absolute value `max x (-x)` of every entry,
  compares it (strictly) with the word `0x7F800000`, whose value is `+∞`, and folds the resulting bits with
  `and` into one scalar bit. If that bit is 1 then every comparison bit is 1, so `max x (-x) < +∞` at every
  entry; an extended real with that property is neither `+∞` nor `-∞` (at either infinity the maximum is `+∞`),
  hence it is the image of a real number.
-/
import Idealize.ShloMosaic.Lib.ReduceAll
import Idealize.ShloMosaic.Lib.ValueIdx
import Idealize.ShloMosaic.PureOps.Ideal.Laws

namespace Cert.LibRealEntries

open Idealize.ShloMosaic

/-- The rank-0 shape has exactly one index: there is no axis to choose a coordinate on. -/
instance subsingleton_scalar_idx : Subsingleton (⟨0, ![]⟩ : Shape).Idx :=
  ⟨fun a b => funext fun d => d.elim0⟩

/-- The 32-bit word `0x7F800000` (sign 0, exponent all ones, mantissa 0) denotes `+∞`. -/
theorem ofBits_pos_inf : Ideal.ofBits .f32 0x7F800000#32 = (⊤ : EReal) := by
  simp [Ideal.ofBits, Ideal.ieee]

/-- An extended real whose absolute value `max x (-x)` is strictly below `+∞` is a real number:
    at `x = +∞` the maximum is `x` itself, at `x = -∞` it is `-x = +∞`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry: if the comparison bit of `|x| < +∞` is 1, then `x` is a real number. -/
theorem exists_real_of_cmp_bit (x : Ideal .f32)
    (h : FloatOps.cmpf .olt (FloatOps.hostAbsf x) (FloatOps.ofBits (F := Ideal) .f32 0x7F800000#32) = 1#1) :
    ∃ r : ℝ, (x : EReal) = (r : EReal) := by
  change Ideal.cmp .olt (max (x : EReal) (-(x : EReal))) (Ideal.ofBits .f32 0x7F800000#32) = 1#1 at h
  rw [ofBits_pos_inf] at h
  unfold Ideal.cmp at h
  refine exists_real_of_abs_lt_top x ?_
  by_contra hn
  simp [hn] at h

/-- A whole array: if the `and`-fold over all axes of the bits `|x i| < +∞` is 1, every entry of `x` is real. -/
theorem exists_real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1)
    (i : s.Idx) : ∃ r : ℝ, x i = (r : EReal) :=
  exists_real_of_cmp_bit (x i) (Host.reduce_andi_all _ _ hr hu _ e i)

end Cert.LibRealEntries
-- ==== Proof.Finite.lean ====
import proofs.«130008_j46316927320539_2_alg».proof.Pre_finite_inputs
import proofs.«130008_j46316927320539_2_alg».proof.Proof.LibRealEntries
import proofs.«130008_j46316927320539_2_alg».proof.Proof.LibThreePasses
import Idealize.ShloMosaic.Lib.Affine

/-!
# The precondition says every float argument is real-valued

The precondition is the conjunction, over the four float arguments, of `all (|x| < +∞)`. If it is 1 then each of the
four conjuncts is 1, and an array all of whose entries have absolute value below `+∞` has real entries only.
-/

noncomputable section

namespace Cert.Pre_finite_inputs.Decode

open Idealize.ShloMosaic Cert.Pre_finite_inputs Cert.Pre_finite_inputs.Facts Cert.Lib

variable [Cert.Pre_finite_inputs.Facts]

/-- FROM THE PRECONDITION: the node features, the edge weights, the weight matrix and the bias are real-valued. -/
theorem real_of_pre (a0 : FVec Ideal S50000x256 .f32) (a1 : IVec S2x800000 32) (a2 : FVec Ideal S800000 .f32)
    (a3 : FVec Ideal S128x256 .f32) (a4 : FVec Ideal S128 .f32)
    (h : fn (F := Ideal) a0 a1 a2 a3 a4 = fun _ => 1#1) :
    RealValued a0 ∧ RealValued a2 ∧ RealValued a3 ∧ RealValued a4 := by
  have h0 := congrFun h ValueIdx.ix0
  dsimp only [fn, fn_part1, andi] at h0
  obtain ⟨h012, e4⟩ := IntOp.andi_eq_one.mp h0
  obtain ⟨h01, e3⟩ := IntOp.andi_eq_one.mp h012
  obtain ⟨e0, e2⟩ := IntOp.andi_eq_one.mp h01
  exact ⟨fun i => Cert.LibRealEntries.exists_real_of_all a0 _ _ _ e0 i,
    fun i => Cert.LibRealEntries.exists_real_of_all a2 _ _ _ e2 i,
    fun i => Cert.LibRealEntries.exists_real_of_all a3 _ _ _ e3 i,
    fun i => Cert.LibRealEntries.exists_real_of_all a4 _ _ _ e4 i⟩

end Cert.Pre_finite_inputs.Decode

end
-- ==== Proof.lean ====
/-
  The claim of this certificate: a graph convolution with two propagation hops, its dense projection done by a kernel
  BEFORE the hops in the kernel's program and by the host AFTER the hops in the reference.

  Both programs first compute the same edge data from the edge list and the edge weights: source and target words
  (given edges, then a self loop per node), clamped weights, weighted in-degrees, their inverse square roots where
  positive, and the normalised weight of every edge. The kernel's program then multiplies the node features
  `x : [50000, 256]` by the transposed weight matrix in ten row blocks, propagates the `[50000, 128]` product twice and
  adds the bias; the reference propagates `x` twice, multiplies by the transposed weight matrix and adds the bias.
  A hop sums, into each target node, the source rows scaled by the edge's normalised weight: it acts on the node axis
  only, so it commutes with a product on the feature axis — for REAL numbers. Over the extended reals this uses that the
  features, the weight matrix and the given edge weights are finite (the precondition), from which the normalised weights
  are real as well. The idealization rewrote nothing, so the fourth conjunct is trivial; the kernel's frames are the
  generated ones and the reference's frame is its run with the result dropped.
-/
import proofs.«130008_j46316927320539_2_alg».proof.Defs
import proofs.«130008_j46316927320539_2_alg».proof.Proof.Gen.Kernel
import proofs.«130008_j46316927320539_2_alg».proof.Proof.Gen.Kernel.Frame
import proofs.«130008_j46316927320539_2_alg».proof.Proof.Gen.KernelIdeal
import proofs.«130008_j46316927320539_2_alg».proof.Proof.Gen.KernelIdeal.Frame
import proofs.«130008_j46316927320539_2_alg».proof.Proof.Gen.ReferenceIdeal
import proofs.«130008_j46316927320539_2_alg».proof.Proof.Gen.Pre_finite_inputs
import proofs.«130008_j46316927320539_2_alg».proof.Proof.KernelRun
import proofs.«130008_j46316927320539_2_alg».proof.Proof.RefRun
import proofs.«130008_j46316927320539_2_alg».proof.Proof.RefRead
import proofs.«130008_j46316927320539_2_alg».proof.Proof.Bridge
import proofs.«130008_j46316927320539_2_alg».proof.Proof.Finite
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its run, every buffer at the operations' fold over the launch contents, read at the
    argument buffers, which no operation writes. -/
theorem frame_ri : Cert.frame_ReferenceIdeal := fun m ρ _ =>
  (θ_run Cert.ReferenceIdeal.defs _ _).mono (fun _ h c =>
      ⟨(h c Cert.ReferenceIdeal.main_arg0).trans (Cert.ReferenceIdeal.HandRun.ref_kept0 _),
       (h c Cert.ReferenceIdeal.main_arg1).trans (Cert.ReferenceIdeal.HandRun.ref_kept1 _),
       (h c Cert.ReferenceIdeal.main_arg2).trans (Cert.ReferenceIdeal.HandRun.ref_kept2 _),
       (h c Cert.ReferenceIdeal.main_arg3).trans (Cert.ReferenceIdeal.HandRun.ref_kept3 _),
       (h c Cert.ReferenceIdeal.main_arg4).trans (Cert.ReferenceIdeal.HandRun.ref_kept4 _)⟩)
    (Cert.ReferenceIdeal.HandRun.run_main (F := Ideal) m ρ)

/-- The two idealized programs end with equal results: the kernel's run leaves the two hops of the projected features
    plus the bias, the reference's run the projection of the two hops plus the bias, of arguments that agree and are
    real-valued by the precondition. -/
theorem algebraic : Cert.algebraic_KernelIdeal_ReferenceIdeal := by
  intro m ρ m' ρ' hpre hagree
  refine ⟨fun c => Cert.KernelIdeal.KRun.kval m c, Cert.KernelIdeal.KRun.run m ρ, ?_⟩
  refine (θ_run Cert.ReferenceIdeal.defs _ _).mono (fun _ h c => ?_) (Cert.ReferenceIdeal.HandRun.run_main (F := Ideal) m' ρ')
  obtain ⟨e0, e1, e2, e3, e4⟩ := hagree c
  obtain ⟨hx, h2, h3, -⟩ := Cert.Pre_finite_inputs.Decode.real_of_pre _ _ _ _ _ (hpre c)
  refine ⟨(h c Cert.ReferenceIdeal.main_v66).trans ((Cert.ReferenceIdeal.HandRun.ref_v66 _).trans ?_),
    (h c Cert.ReferenceIdeal.main_arg0).trans (Cert.ReferenceIdeal.HandRun.ref_kept0 _),
    (h c Cert.ReferenceIdeal.main_arg1).trans (Cert.ReferenceIdeal.HandRun.ref_kept1 _),
    (h c Cert.ReferenceIdeal.main_arg2).trans (Cert.ReferenceIdeal.HandRun.ref_kept2 _),
    (h c Cert.ReferenceIdeal.main_arg3).trans (Cert.ReferenceIdeal.HandRun.ref_kept3 _),
    (h c Cert.ReferenceIdeal.main_arg4).trans (Cert.ReferenceIdeal.HandRun.ref_kept4 _)⟩
  show Cert.Bridge.rval (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [e0, e1, e2, e3, e4]
  exact Cert.Bridge.value_eq _ _ _ _ _ hx h2 h3

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
